-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v67)) (v1 : (c : Dev Cert.KernelIdeal.nD) → Buf (Elt Ideal) ((c.tc : Thread Cert.KernelIdeal.nD Cert.KernelIdeal.τ).loc Cert.KernelIdeal.main_v20)) (v2 : (c : Dev Cert.KernelIdeal.nD) → Buf (Elt Ideal) ((c.tc : Thread Cert.KernelIdeal.nD Cert.KernelIdeal.τ).loc Cert.KernelIdeal.main_v52)) (v3 : (c : Dev Cert.KernelIdeal.nD) → Buf (Elt Ideal) ((c.tc : Thread Cert.KernelIdeal.nD Cert.KernelIdeal.τ).loc Cert.KernelIdeal.main_v62)) (v4 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_v52) = v2 c
          ∧ r.2.mem ((c.tc : Thread Cert.KernelIdeal.nD Cert.KernelIdeal.τ).loc Cert.KernelIdeal.main_v62) = v3 c
          ∧ r.2.mem ((c.tc : Thread Cert.KernelIdeal.nD Cert.KernelIdeal.τ).loc Cert.KernelIdeal.main_v4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_v76) = v2 c
          ∧ r.2.mem ((c.tc : Thread Cert.ReferenceIdeal.nD Cert.ReferenceIdeal.τ).loc Cert.ReferenceIdeal.main_v86) = v3 c
          ∧ r.2.mem ((c.tc : Thread Cert.ReferenceIdeal.nD Cert.ReferenceIdeal.τ).loc Cert.ReferenceIdeal.main_v11) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x32x256x512 : Shape := ⟨4, ![4, 32, 256, 512]⟩
abbrev S4x256x512 : Shape := ⟨3, ![4, 256, 512]⟩
abbrev S_ : Shape := ⟨0, ![]⟩

class Facts : Prop where
  bcast_S_S4x32x256x512 : S_.BroadcastsInDim S4x32x256x512 (![] : Fin 0 → Fin S4x32x256x512.rank)
  reducesTo_S4x32x256x512_S_d0_1_2_3 : S4x32x256x512.ReducesTo [0, 1, 2, 3] S_
  h_S_ : 0 < S_.numel

variable [Facts]

def fn {F : FTy → Type} [FloatOps F] (main_arg0 : FVec F S4x32x256x512 .f32) (main_arg1 : IVec S4x256x512 32) : IVec S_ 1 :=
  let main_v0 : FVec F S4x32x256x512 .f32 := Host.absf main_arg0
  let main_cst : FVec F S_ .f32 := constant S_ .f32 0x7F800000#32
  let main_v1 : FVec F S4x32x256x512 .f32 := broadcastInDim S4x32x256x512 ![] bcast_S_S4x32x256x512 main_cst
  let main_v2 : IVec S4x32x256x512 1 := cmpf .olt main_v0 main_v1
  let main_c : IVec S_ 1 := constantI S_ 1 1#1
  let main_v3 : IVec S_ 1 := (fun x v => Host.reduce IntOp.andi x v reducesTo_S4x32x256x512_S_d0_1_2_3 h_S_) main_v2 main_c
  main_v3
-- ==== Kernel.lean ====
abbrev S4x32x256x512 : Shape := ⟨4, ![4, 32, 256, 512]⟩
abbrev S4x256x512 : Shape := ⟨3, ![4, 256, 512]⟩
abbrev S4x32x131072 : Shape := ⟨3, ![4, 32, 131072]⟩
abbrev S4x1x131072 : Shape := ⟨3, ![4, 1, 131072]⟩
abbrev S4x32x16 : Shape := ⟨3, ![4, 32, 16]⟩
abbrev S1x32x32768 : Shape := ⟨3, ![1, 32, 32768]⟩
abbrev S1x1x32768 : Shape := ⟨3, ![1, 1, 32768]⟩
abbrev S1x32x16 : Shape := ⟨3, ![1, 32, 16]⟩
abbrev S32x32768 : Shape := ⟨2, ![32, 32768]⟩
abbrev S32768 : Shape := ⟨1, ![32768]⟩
abbrev S1x32768 : Shape := ⟨2, ![1, 32768]⟩
abbrev S16x32768 : Shape := ⟨2, ![16, 32768]⟩
abbrev S32x16 : Shape := ⟨2, ![32, 16]⟩
abbrev S_ : Shape := ⟨0, ![]⟩
abbrev S4x16 : Shape := ⟨2, ![4, 16]⟩
abbrev S4x1x16 : Shape := ⟨3, ![4, 1, 16]⟩
abbrev S1x1x16 : Shape := ⟨3, ![1, 1, 16]⟩
abbrev S16 : Shape := ⟨1, ![16]⟩
abbrev S16x32 : Shape := ⟨2, ![16, 32]⟩
abbrev S16x1 : Shape := ⟨2, ![16, 1]⟩
abbrev S4 : Shape := ⟨1, ![4]⟩
abbrev S4x16x16 : Shape := ⟨3, ![4, 16, 16]⟩
abbrev S4x16x1 : Shape := ⟨3, ![4, 16, 1]⟩
abbrev S16x16 : Shape := ⟨2, ![16, 16]⟩

abbrev nBuf : Space → Nat
  | .hbm => 117
  | .vmem => 16
  | .smem => 0
  | _ => 0

abbrev bufTy : (tb : Table) → Fin (tcTables nBuf tb) → BufTy
  | .hbm, ⟨0, _⟩ => ⟨S4x32x256x512, .f32⟩
  | .hbm, ⟨1, _⟩ => ⟨S4x256x512, .i32⟩
  | .hbm, ⟨2, _⟩ => ⟨S4x32x131072, .f32⟩
  | .hbm, ⟨3, _⟩ => ⟨S4x1x131072, .i32⟩
  | .hbm, ⟨4, _⟩ => ⟨S4x32x16, .f32⟩
  | .hbm, ⟨5, _⟩ => ⟨S_, .f32⟩
  | .hbm, ⟨6, _⟩ => ⟨S4x32x16, .f32⟩
  | .hbm, ⟨7, _⟩ => ⟨S4x32x16, .f32⟩
  | .hbm, ⟨8, _⟩ => ⟨S4x32x16, .f32⟩
  | .hbm, ⟨9, _⟩ => ⟨S_, .f32⟩
  | .hbm, ⟨10, _⟩ => ⟨S4x16, .f32⟩
  | .hbm, ⟨11, _⟩ => ⟨S4x1x16, .f32⟩
  | .hbm, ⟨12, _⟩ => ⟨S4x1x16, .f32⟩
  | .hbm, ⟨13, _⟩ => ⟨S4x16, .f32⟩
  | .hbm, ⟨14, _⟩ => ⟨S_, .f32⟩
  | .hbm, ⟨15, _⟩ => ⟨S4x16, .f32⟩
  | .hbm, ⟨16, _⟩ => ⟨S4x16, .f32⟩
  | .hbm, ⟨17, _⟩ => ⟨S_, .f32⟩
  | .hbm, ⟨18, _⟩ => ⟨S4x16, .f32⟩
  | .hbm, ⟨19, _⟩ => ⟨S4x16, .f32⟩
  | .hbm, ⟨20, _⟩ => ⟨S_, .f32⟩
  | .hbm, ⟨21, _⟩ => ⟨S4x16, .f32⟩
  | .hbm, ⟨22, _⟩ => ⟨S4x16, .f32⟩
  | .hbm, ⟨23, _⟩ => ⟨S_, .f32⟩
  | .hbm, ⟨24, _⟩ => ⟨S4, .f32⟩
  | .hbm, ⟨25, _⟩ => ⟨S_, .f32⟩
  | .hbm, ⟨26, _⟩ => ⟨S4, .f32⟩
  | .hbm, ⟨27, _⟩ => ⟨S4, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S4x16x16, .f32⟩
  | .hbm, ⟨33, _⟩ => ⟨S4x16x1, .f32⟩
  | .hbm, ⟨34, _⟩ => ⟨S4x1x16, .f32⟩
  | .hbm, ⟨35, _⟩ => ⟨S4x16x16, .f32⟩
  | .hbm, ⟨36, _⟩ => ⟨S4x16x16, .f32⟩
  | .hbm, ⟨37, _⟩ => ⟨S4x16x16, .f32⟩
  | .hbm, ⟨38, _⟩ => ⟨S_, .f32⟩
  | .hbm, ⟨39, _⟩ => ⟨S4x16x16, .f32⟩
  | .hbm, ⟨40, _⟩ => ⟨S4x16x16, .f32⟩
  | .hbm, ⟨41, _⟩ => ⟨S4x16x16, .f32⟩
  | .hbm, ⟨42, _⟩ => ⟨S16x16, .i32⟩
  | .hbm, ⟨43, _⟩ => ⟨S16x16, .i32⟩
  | .hbm, ⟨44, _⟩ => ⟨S_, .i32⟩
  | .hbm, ⟨45, _⟩ => ⟨S16x16, .i32⟩
  | .hbm, ⟨46, _⟩ => ⟨S16x16, .i32⟩
  | .hbm, ⟨47, _⟩ => ⟨S16x16, .i1⟩
  | .hbm, ⟨48, _⟩ => ⟨S_, .f32⟩
  | .hbm, ⟨49, _⟩ => ⟨S_, .f32⟩
  | .hbm, ⟨50, _⟩ => ⟨S4x16x16, .i1⟩
  | .hbm, ⟨51, _⟩ => ⟨S4x16x16, .f32⟩
  | .hbm, ⟨52, _⟩ => ⟨S4x16x16, .f32⟩
  | .hbm, ⟨53, _⟩ => ⟨S_, .f32⟩
  | .hbm, ⟨54, _⟩ => ⟨S4x16x16, .f32⟩
  | .hbm, ⟨55, _⟩ => ⟨S4x16x16, .f32⟩
  | .hbm, ⟨56, _⟩ => ⟨S_, .f32⟩
  | .hbm, ⟨57, _⟩ => ⟨S4x16x16, .f32⟩
  | .hbm, ⟨58, _⟩ => ⟨S4x16x16, .i1⟩
  | .hbm, ⟨59, _⟩ => ⟨S_, .f32⟩
  | .hbm, ⟨60, _⟩ => ⟨S_, .f32⟩
  | .hbm, ⟨61, _⟩ => ⟨S4x16x16, .f32⟩
  | .hbm, ⟨62, _⟩ => ⟨S4x16x16, .f32⟩
  | .hbm, ⟨63, _⟩ => ⟨S4x16x16, .f32⟩
  | .hbm, ⟨64, _⟩ => ⟨S_, .f32⟩
  | .hbm, ⟨65, _⟩ => ⟨S_, .f32⟩
  | .hbm, ⟨66, _⟩ => ⟨S4x16x16, .f32⟩
  | .hbm, ⟨67, _⟩ => ⟨S4x16x16, .f32⟩
  | .hbm, ⟨68, _⟩ => ⟨S_, .f32⟩
  | .hbm, ⟨69, _⟩ => ⟨S_, .f32⟩
  | .hbm, ⟨70, _⟩ => ⟨S4x16x16, .i1⟩
  | .hbm, ⟨71, _⟩ => ⟨S4x16x16, .f32⟩
  | .hbm, ⟨72, _⟩ => ⟨S4x16x16, .f32⟩
  | .hbm, ⟨73, _⟩ => ⟨S_, .f32⟩
  | .hbm, ⟨74, _⟩ => ⟨S4x16, .f32⟩
  | .hbm, ⟨75, _⟩ => ⟨S_, .f32⟩
  | .hbm, ⟨76, _⟩ => ⟨S4x16, .f32⟩
  | .hbm, ⟨77, _⟩ => ⟨S4x16, .f32⟩
  | .hbm, ⟨78, _⟩ => ⟨S_, .f32⟩
  | .hbm, ⟨79, _⟩ => ⟨S4x16, .f32⟩
  | .hbm, ⟨80, _⟩ => ⟨S4x16, .f32⟩
  | .hbm, ⟨81, _⟩ => ⟨S_, .f32⟩
  | .hbm, ⟨82, _⟩ => ⟨S4x16, .f32⟩
  | .hbm, ⟨83, _⟩ => ⟨S4x16, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S4x16, .f32⟩
  | .hbm, ⟨90, _⟩ => ⟨S4x16, .i1⟩
  | .hbm, ⟨91, _⟩ => ⟨S_, .f32⟩
  | .hbm, ⟨92, _⟩ => ⟨S_, .f32⟩
  | .hbm, ⟨93, _⟩ => ⟨S4x16, .f32⟩
  | .hbm, ⟨94, _⟩ => ⟨S4x16, .f32⟩
  | .hbm, ⟨95, _⟩ => ⟨S4x16, .f32⟩
  | .hbm, ⟨96, _⟩ => ⟨S_, .f32⟩
  | .hbm, ⟨97, _⟩ => ⟨S_, .f32⟩
  | .hbm, ⟨98, _⟩ => ⟨S4x16, .f32⟩
  | .hbm, ⟨99, _⟩ => ⟨S4x16, .f32⟩
  | .hbm, ⟨100, _⟩ => ⟨S_, .f32⟩
  | .hbm, ⟨101, _⟩ => ⟨S4, .f32⟩
  | .hbm, ⟨102, _⟩ => ⟨S_, .f32⟩
  | .hbm, ⟨103, _⟩ => ⟨S4, .f32⟩
  | .hbm, ⟨104, _⟩ => ⟨S4, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .local _ .vmem, ⟨0, _⟩ => ⟨S1x32x32768, .f32⟩
  | .local _ .vmem, ⟨1, _⟩ => ⟨S1x32x32768, .f32⟩
  | .local _ .vmem, ⟨2, _⟩ => ⟨S1x1x32768, .i32⟩
  | .local _ .vmem, ⟨3, _⟩ => ⟨S1x1x32768, .i32⟩
  | .local _ .vmem, ⟨4, _⟩ => ⟨S1x32x16, .f32⟩
  | .local _ .vmem, ⟨5, _⟩ => ⟨S1x32x16, .f32⟩
  | .local _ .vmem, ⟨6, _⟩ => ⟨S1x32x32768, .f32⟩
  | .local _ .vmem, ⟨7, _⟩ => ⟨S1x32x32768, .f32⟩
  | .local _ .vmem, ⟨8, _⟩ => ⟨S1x1x32768, .i32⟩
  | .local _ .vmem, ⟨9, _⟩ => ⟨S1x1x32768, .i32⟩
  | .local _ .vmem, ⟨10, _⟩ => ⟨S1x32x16, .f32⟩
  | .local _ .vmem, ⟨11, _⟩ => ⟨S1x32x16, .f32⟩
  | .local _ .vmem, ⟨12, _⟩ => ⟨S1x1x16, .f32⟩
  | .local _ .vmem, ⟨13, _⟩ => ⟨S1x1x16, .f32⟩
  | .local _ .vmem, ⟨14, _⟩ => ⟨S1x1x16, .f32⟩
  | .local _ .vmem, ⟨15, _⟩ => ⟨S1x1x16, .f32⟩
  | _, _ => ⟨S4x32x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_8 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_v35 : Ref sig .tc := ⟨.hbm, 52, rfl⟩
abbrev main_cst_10 : Ref sig .tc := ⟨.hbm, 53, rfl⟩
abbrev main_v36 : Ref sig .tc := ⟨.hbm, 54, rfl⟩
abbrev main_v37 : Ref sig .tc := ⟨.hbm, 55, rfl⟩
abbrev main_cst_11 : Ref sig .tc := ⟨.hbm, 56, rfl⟩
abbrev main_v38 : Ref sig .tc := ⟨.hbm, 57, rfl⟩
abbrev main_v39 : Ref sig .tc := ⟨.hbm, 58, rfl⟩
abbrev main_cst_12 : Ref sig .tc := ⟨.hbm, 59, rfl⟩
abbrev main_call1_v0 : Ref sig .tc := ⟨.hbm, 60, rfl⟩
abbrev main_call1_v1 : Ref sig .tc := ⟨.hbm, 61, rfl⟩
abbrev main_v40 : Ref sig .tc := ⟨.hbm, 62, rfl⟩
abbrev main_v41 : Ref sig .tc := ⟨.hbm, 63, rfl⟩
abbrev main_cst_13 : Ref sig .tc := ⟨.hbm, 64, rfl⟩
abbrev main_call2_v0 : Ref sig .tc := ⟨.hbm, 65, rfl⟩
abbrev main_call2_v1 : Ref sig .tc := ⟨.hbm, 66, rfl⟩
abbrev main_v42 : Ref sig .tc := ⟨.hbm, 67, rfl⟩
abbrev main_cst_14 : Ref sig .tc := ⟨.hbm, 68, rfl⟩
abbrev main_call3_v0 : Ref sig .tc := ⟨.hbm, 69, rfl⟩
abbrev main_call3_v1 : Ref sig .tc := ⟨.hbm, 70, rfl⟩
abbrev main_call3_v2 : Ref sig .tc := ⟨.hbm, 71, rfl⟩
abbrev main_v43 : Ref sig .tc := ⟨.hbm, 72, rfl⟩
abbrev main_cst_15 : Ref sig .tc := ⟨.hbm, 73, rfl⟩
abbrev main_v44 : Ref sig .tc := ⟨.hbm, 74, rfl⟩
abbrev main_cst_16 : Ref sig .tc := ⟨.hbm, 75, rfl⟩
abbrev main_v45 : Ref sig .tc := ⟨.hbm, 76, rfl⟩
abbrev main_v46 : Ref sig .tc := ⟨.hbm, 77, rfl⟩
abbrev main_cst_17 : Ref sig .tc := ⟨.hbm, 78, rfl⟩
abbrev main_v47 : Ref sig .tc := ⟨.hbm, 79, rfl⟩
abbrev main_v48 : Ref sig .tc := ⟨.hbm, 80, rfl⟩
abbrev main_cst_18 : Ref sig .tc := ⟨.hbm, 81, rfl⟩
abbrev main_v49 : Ref sig .tc := ⟨.hbm, 82, rfl⟩
abbrev main_v50 : Ref sig .tc := ⟨.hbm, 83, rfl⟩
abbrev main_cst_19 : Ref sig .tc := ⟨.hbm, 84, rfl⟩
abbrev main_v51 : Ref sig .tc := ⟨.hbm, 85, rfl⟩
abbrev main_cst_20 : Ref sig .tc := ⟨.hbm, 86, rfl⟩
abbrev main_v52 : Ref sig .tc := ⟨.hbm, 87, rfl⟩
abbrev main_cst_21 : Ref sig .tc := ⟨.hbm, 88, rfl⟩
abbrev main_v53 : Ref sig .tc := ⟨.hbm, 89, rfl⟩
abbrev main_v54 : Ref sig .tc := ⟨.hbm, 90, rfl⟩
abbrev main_cst_22 : Ref sig .tc := ⟨.hbm, 91, rfl⟩
abbrev main_call4_v0 : Ref sig .tc := ⟨.hbm, 92, rfl⟩
abbrev main_call4_v1 : Ref sig .tc := ⟨.hbm, 93, rfl⟩
abbrev main_v55 : Ref sig .tc := ⟨.hbm, 94, rfl⟩
abbrev main_v56 : Ref sig .tc := ⟨.hbm, 95, rfl⟩
abbrev main_cst_23 : Ref sig .tc := ⟨.hbm, 96, rfl⟩
abbrev main_call5_v0 : Ref sig .tc := ⟨.hbm, 97, rfl⟩
abbrev main_call5_v1 : Ref sig .tc := ⟨.hbm, 98, rfl⟩
abbrev main_v57 : Ref sig .tc := ⟨.hbm, 99, rfl⟩
abbrev main_cst_24 : Ref sig .tc := ⟨.hbm, 100, rfl⟩
abbrev main_v58 : Ref sig .tc := ⟨.hbm, 101, rfl⟩
abbrev main_cst_25 : Ref sig .tc := ⟨.hbm, 102, rfl⟩
abbrev main_v59 : Ref sig .tc := ⟨.hbm, 103, rfl⟩
abbrev main_v60 : Ref sig .tc := ⟨.hbm, 104, rfl⟩
abbrev main_cst_26 : Ref sig .tc := ⟨.hbm, 105, rfl⟩
abbrev main_v61 : Ref sig .tc := ⟨.hbm, 106, rfl⟩
abbrev main_cst_27 : Ref sig .tc := ⟨.hbm, 107, rfl⟩
abbrev main_v62 : Ref sig .tc := ⟨.hbm, 108, rfl⟩
abbrev main_cst_28 : Ref sig .tc := ⟨.hbm, 109, rfl⟩
abbrev main_v63 : Ref sig .tc := ⟨.hbm, 110, rfl⟩
abbrev main_cst_29 : Ref sig .tc := ⟨.hbm, 111, rfl⟩
abbrev main_v64 : Ref sig .tc := ⟨.hbm, 112, rfl⟩
abbrev main_v65 : Ref sig .tc := ⟨.hbm, 113, rfl⟩
abbrev main_cst_30 : Ref sig .tc := ⟨.hbm, 114, rfl⟩
abbrev main_v66 : Ref sig .tc := ⟨.hbm, 115, rfl⟩
abbrev main_v67 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x32768 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x32x32768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x32768 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x32x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  shapeCasts_S4x32x256x512_S4x32x131072 : S4x32x256x512.ShapeCasts S4x32x131072
  shapeCasts_S4x256x512_S4x1x131072 : S4x256x512.ShapeCasts S4x1x131072
  inb_S1x32x16_S1x32x16_0_0_0 : ∀ a, (![0, 0, 0] : Fin 3 → Nat) a + S1x32x16.size a ≤ S1x32x16.size a
  h_S1x32x16 : 0 < S1x32x16.numel
  inb_S1x32x32768_S1x32x32768_0_0_0 : ∀ a, (![0, 0, 0] : Fin 3 → Nat) a + S1x32x32768.size a ≤ S1x32x32768.size a
  h_S1x32x32768 : 0 < S1x32x32768.numel
  shapeCasts_S1x32x32768_S32x32768 : S1x32x32768.ShapeCasts S32x32768
  inb_S1x1x32768_S1x1x32768_0_0_0 : ∀ a, (![0, 0, 0] : Fin 3 → Nat) a + S1x1x32768.size a ≤ S1x1x32768.size a
  h_S1x1x32768 : 0 < S1x1x32768.numel
  shapeCasts_S1x1x32768_S32768 : S1x1x32768.ShapeCasts S32768
  shapeCasts_S32768_S1x32768 : S32768.ShapeCasts S1x32768
  iota_S16x32768_d0_w32 : S16x32768.Iotas .tc 32 [0]
  broadcasts_S1x32768_S16x32768 : S1x32768.Broadcasts S16x32768
  natLt_1_32 : 1 < 32
  bitsLt_bf16_f32 : FTy.bits .bf16 < FTy.bits .f32
  shapeCasts_S1x32x16_S32x16 : S1x32x16.ShapeCasts S32x16
  shapeCasts_S32x16_S1x32x16 : S32x16.ShapeCasts S1x32x16
  bcast_S_S4x32x16 : S_.BroadcastsInDim S4x32x16 (![] : Fin 0 → Fin S4x32x16.rank)
  reducesTo_S4x32x16_S4x16_d1 : S4x32x16.ReducesTo [1] S4x16
  h_S_ : 0 < S_.numel
  shapeCasts_S4x16_S4x1x16 : S4x16.ShapeCasts S4x1x16
  inb_S1x1x16_S1x1x16_0_0_0 : ∀ a, (![0, 0, 0] : Fin 3 → Nat) a + S1x1x16.size a ≤ S1x1x16.size a
  h_S1x1x16 : 0 < S1x1x16.numel
  shapeCasts_S1x1x16_S16 : S1x1x16.ShapeCasts S16
  transposes_S32x16_p1_0_S16x32 : S32x16.Transposes [1, 0] S16x32
  reduces_S32x32768_S32768 : S32x32768.Reduces [0] S32768
  shapeCasts_S16_S16x1 : S16.ShapeCasts S16x1
  broadcasts_S16x1_S16x32768 : S16x1.Broadcasts S16x32768
  reduces_S16x32768_S16 : S16x32768.Reduces [1] S16
  shapeCasts_S16_S1x1x16 : S16.ShapeCasts S1x1x16
  shapeCasts_S4x1x16_S4x16 : S4x1x16.ShapeCasts S4x16
  bcast_S_S4x16 : S_.BroadcastsInDim S4x16 (![] : Fin 0 → Fin S4x16.rank)
  reducesTo_S4x16_S4_d1 : S4x16.ReducesTo [1] S4
  bcast_S_S4 : S_.BroadcastsInDim S4 (![] : Fin 0 → Fin S4.rank)
  reducesTo_S4_S_d0 : S4.ReducesTo [0] S_
  bcast_S4x16_S4x16x1_0_1 : S4x16.BroadcastsInDim S4x16x1 (![0, 1] : Fin 2 → Fin S4x16x1.rank)
  bcast_S4x16_S4x1x16_0_2 : S4x16.BroadcastsInDim S4x1x16 (![0, 2] : Fin 2 → Fin S4x1x16.rank)
  bcast_S4x16x1_S4x16x16_0_1_2 : S4x16x1.BroadcastsInDim S4x16x16 (![0, 1, 2] : Fin 3 → Fin S4x16x16.rank)
  bcast_S4x1x16_S4x16x16_0_1_2 : S4x1x16.BroadcastsInDim S4x16x16 (![0, 1, 2] : Fin 3 → Fin S4x16x16.rank)
  bcast_S_S4x16x16 : S_.BroadcastsInDim S4x16x16 (![] : Fin 0 → Fin S4x16x16.rank)
  bcast_S_S16x16 : S_.BroadcastsInDim S16x16 (![] : Fin 0 → Fin S16x16.rank)
  bcast_S16x16_S4x16x16_1_2 : S16x16.BroadcastsInDim S4x16x16 (![1, 2] : Fin 2 → Fin S4x16x16.rank)
  reducesTo_S4x16x16_S4x16_d2 : S4x16x16.ReducesTo [2] S4x16
  reducesTo_S4x16_S_d0_1 : S4x16.ReducesTo [0, 1] S_
  dot_S32x32768_S16x32768_S32x16_1_1_0_0_n_n_wf : DotDims.WF S32x32768 S16x32768 S32x16 [1] [1] [0] [0] [] []
  dot_S16x32_S32x32768_S16x32768_1_0_0_1_n_n_wf : DotDims.WF S16x32 S32x32768 S16x32768 [1] [0] [0] [1] [] []
  dot_S4x32x16_S4x32x16_S4x16x16_1_1_2_2_0_0_wf : DotDims.WF S4x32x16 S4x32x16 S4x16x16 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x32768.size a ≤ S4x32x131072.size a
  hwx0_0 : ∀ i : grid0.Coords, EltTy.bits .f32 = 32 ∨ (Rect.block (s := S4x32x131072) S1x32x32768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x32768.size a ≤ S4x1x131072.size a
  hwx0_1 : ∀ i : grid0.Coords, EltTy.bits .i32 = 32 ∨ (Rect.block (s := S4x1x131072) S1x1x32768.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x16.size a ≤ S4x32x16.size a
  hwx0_2 : ∀ i : grid0.Coords, EltTy.bits .f32 = 32 ∨ (Rect.block (s := S4x32x16) S1x32x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x32x32768.size a ≤ S4x32x131072.size a
  hwx1_0 : ∀ i : grid1.Coords, EltTy.bits .f32 = 32 ∨ (Rect.block (s := S4x32x131072) S1x32x32768.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x32768.size a ≤ S4x1x131072.size a
  hwx1_1 : ∀ i : grid1.Coords, EltTy.bits .i32 = 32 ∨ (Rect.block (s := S4x1x131072) S1x1x32768.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x32x16.size a ≤ S4x32x16.size a
  hwx1_2 : ∀ i : grid1.Coords, EltTy.bits .f32 = 32 ∨ (Rect.block (s := S4x32x16) S1x32x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x16.size a ≤ S4x1x16.size a
  hwx1_3 : ∀ i : grid1.Coords, EltTy.bits .f32 = 32 ∨ (Rect.block (s := S4x1x16) S1x1x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x16.size a ≤ S4x1x16.size a
  hwx1_4 : ∀ i : grid1.Coords, EltTy.bits .f32 = 32 ∨ (Rect.block (s := S4x1x16) S1x1x16.size (cc1_transform_4 i) (hinb1_4 i)).WholeWords (EltTy.packing .f32)

variable [Facts₀]

def dot_S32x32768_S16x32768_S32x16_1_1_0_0_n_n : DotDims S32x32768 S16x32768 S32x16 where
  lhsContracting := [1]
  rhsContracting := [1]
  lhsNonContracting := [0]
  rhsNonContracting := [0]
  lhsBatch := []
  rhsBatch := []
  wf := dot_S32x32768_S16x32768_S32x16_1_1_0_0_n_n_wf
def dot_S16x32_S32x32768_S16x32768_1_0_0_1_n_n : DotDims S16x32 S32x32768 S16x32768 where
  lhsContracting := [1]
  rhsContracting := [0]
  lhsNonContracting := [0]
  rhsNonContracting := [1]
  lhsBatch := []
  rhsBatch := []
  wf := dot_S16x32_S32x32768_S16x32768_1_0_0_1_n_n_wf
def dot_S4x32x16_S4x32x16_S4x16x16_1_1_2_2_0_0 : DotDims S4x32x16 S4x32x16 S4x16x16 where
  lhsContracting := [1]
  rhsContracting := [1]
  lhsNonContracting := [2]
  rhsNonContracting := [2]
  lhsBatch := [0]
  rhsBatch := [0]
  wf := dot_S4x32x16_S4x32x16_S4x16x16_1_1_2_2_0_0_wf

abbrev win0_0 : Pipeline.Window sig grid0 :=
  Pipeline.Window.ofSpec (Memref.whole main_v0) S1x32x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x32768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x32x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S1x32x32768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x1x32768.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x32x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x1x16.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v8) S1x1x16.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4x32x256x512 : Shape := ⟨4, ![4, 32, 256, 512]⟩
abbrev S4x256x512 : Shape := ⟨3, ![4, 256, 512]⟩
abbrev S4x32x131072 : Shape := ⟨3, ![4, 32, 131072]⟩
abbrev S4x131072 : Shape := ⟨2, ![4, 131072]⟩
abbrev S4x131072x1 : Shape := ⟨3, ![4, 131072, 1]⟩
abbrev S16 : Shape := ⟨1, ![16]⟩
abbrev S1x1x16 : Shape := ⟨3, ![1, 1, 16]⟩
abbrev S4x131072x16 : Shape := ⟨3, ![4, 131072, 16]⟩
abbrev S4x32x16 : Shape := ⟨3, ![4, 32, 16]⟩
abbrev S_ : Shape := ⟨0, ![]⟩
abbrev S4x16 : Shape := ⟨2, ![4, 16]⟩
abbrev S4x1x16 : Shape := ⟨3, ![4, 1, 16]⟩
abbrev S4 : Shape := ⟨1, ![4]⟩
abbrev S4x16x16 : Shape := ⟨3, ![4, 16, 16]⟩
abbrev S4x16x1 : Shape := ⟨3, ![4, 16, 1]⟩
abbrev S16x16 : Shape := ⟨2, ![16, 16]⟩

abbrev nBuf : Space → Nat
  | .hbm => 152
  | .vmem => 0
  | .smem => 0
  | _ => 0

abbrev hbmTy0_0 (i : Nat) : BufTy := match i % 128 with
  | 0 => ⟨S4x32x256x512, .f32⟩
  | 1 => ⟨S4x256x512, .i32⟩
  | 2 => ⟨S4x32x131072, .f32⟩
  | 3 => ⟨S4x131072, .i32⟩
  | 4 => ⟨S4x131072x1, .i32⟩
  | 5 => ⟨S16, .i32⟩
  | 6 => ⟨S1x1x16, .i32⟩
  | 7 => ⟨S4x131072x16, .i32⟩
  | 8 => ⟨S4x131072x16, .i32⟩
  | 9 => ⟨S4x131072x16, .i1⟩
  | 10 => ⟨S4x131072x16, .f32⟩
  | 11 => ⟨S4x32x16, .f32⟩
  | 12 => ⟨S_, .f32⟩
  | 13 => ⟨S4x32x16, .f32⟩
  | 14 => ⟨S4x32x16, .f32⟩
  | 15 => ⟨S4x32x131072, .f32⟩
  | 16 => ⟨S_, .f32⟩
  | 17 => ⟨S4x131072, .f32⟩
  | 18 => ⟨S4x131072x16, .f32⟩
  | 19 => ⟨S4x32x16, .f32⟩
  | 20 => ⟨S_, .f32⟩
  | 21 => ⟨S4x16, .f32⟩
  | 22 => ⟨S4x131072x1, .f32⟩
  | 23 => ⟨S_, .f32⟩
  | 24 => ⟨S4x131072x16, .f32⟩
  | 25 => ⟨S4x131072x16, .f32⟩
  | 26 => ⟨S4x131072x16, .f32⟩
  | 27 => ⟨S4x131072x16, .f32⟩
  | 28 => ⟨S4x131072x16, .f32⟩
  | 29 => ⟨S4x1x16, .f32⟩
  | 30 => ⟨S4x131072x16, .f32⟩
  | 31 => ⟨S4x131072x16, .f32⟩
  | 32 => ⟨S_, .f32⟩
  | 33 => ⟨S4x131072x16, .f32⟩
  | 34 => ⟨S4x131072x16, .f32⟩
  | 35 => ⟨S_, .f32⟩
  | 36 => ⟨S4x131072x16, .f32⟩
  | 37 => ⟨S4x131072x16, .i1⟩
  | 38 => ⟨S_, .f32⟩
  | 39 => ⟨S_, .f32⟩
  | 40 => ⟨S4x131072x16, .f32⟩
  | 41 => ⟨S4x131072x16, .f32⟩
  | 42 => ⟨S4x131072x16, .f32⟩
  | 43 => ⟨S_, .f32⟩
  | 44 => ⟨S_, .f32⟩
  | 45 => ⟨S4x131072x16, .f32⟩
  | 46 => ⟨S4x131072x16, .f32⟩
  | 47 => ⟨S_, .f32⟩
  | 48 => ⟨S4x16, .f32⟩
  | 49 => ⟨S_, .f32⟩
  | 50 => ⟨S4x16, .f32⟩
  | 51 => ⟨S4x16, .f32⟩
  | 52 => ⟨S_, .f32⟩
  | 53 => ⟨S4x16, .f32⟩
  | 54 => ⟨S4x16, .f32⟩
  | 55 => ⟨S_, .f32⟩
  | 56 => ⟨S4x16, .f32⟩
  | 57 => ⟨S4x16, .f32⟩
  | 58 => ⟨S_, .f32⟩
  | 59 => ⟨S4, .f32⟩
  | 60 => ⟨S_, .f32⟩
  | 61 => ⟨S4, .f32⟩
  | 62 => ⟨S4, .f32⟩
  | 63 => ⟨S_, .f32⟩
  | 64 => ⟨S_, .f32⟩
  | 65 => ⟨S_, .f32⟩
  | 66 => ⟨S_, .f32⟩
  | 67 => ⟨S4x16x16, .f32⟩
  | 68 => ⟨S4x16x1, .f32⟩
  | 69 => ⟨S4x1x16, .f32⟩
  | 70 => ⟨S4x16x16, .f32⟩
  | 71 => ⟨S4x16x16, .f32⟩
  | 72 => ⟨S4x16x16, .f32⟩
  | 73 => ⟨S_, .f32⟩
  | 74 => ⟨S4x16x16, .f32⟩
  | 75 => ⟨S4x16x16, .f32⟩
  | 76 => ⟨S4x16x16, .f32⟩
  | 77 => ⟨S16x16, .i32⟩
  | 78 => ⟨S16x16, .i32⟩
  | 79 => ⟨S_, .i32⟩
  | 80 => ⟨S16x16, .i32⟩
  | 81 => ⟨S16x16, .i32⟩
  | 82 => ⟨S16x16, .i1⟩
  | 83 => ⟨S_, .f32⟩
  | 84 => ⟨S_, .f32⟩
  | 85 => ⟨S4x16x16, .i1⟩
  | 86 => ⟨S4x16x16, .f32⟩
  | 87 => ⟨S4x16x16, .f32⟩
  | 88 => ⟨S_, .f32⟩
  | 89 => ⟨S4x16x16, .f32⟩
  | 90 => ⟨S4x16x16, .f32⟩
  | 91 => ⟨S_, .f32⟩
  | 92 => ⟨S4x16x16, .f32⟩
  | 93 => ⟨S4x16x16, .i1⟩
  | 94 => ⟨S_, .f32⟩
  | 95 => ⟨S_, .f32⟩
  | 96 => ⟨S4x16x16, .f32⟩
  | 97 => ⟨S4x16x16, .f32⟩
  | 98 => ⟨S4x16x16, .f32⟩
  | 99 => ⟨S_, .f32⟩
  | 100 => ⟨S_, .f32⟩
  | 101 => ⟨S4x16x16, .f32⟩
  | 102 => ⟨S4x16x16, .f32⟩
  | 103 => ⟨S_, .f32⟩
  | 104 => ⟨S_, .f32⟩
  | 105 => ⟨S4x16x16, .i1⟩
  | 106 => ⟨S4x16x16, .f32⟩
  | 107 => ⟨S4x16x16, .f32⟩
  | 108 => ⟨S_, .f32⟩
  | 109 => ⟨S4x16, .f32⟩
  | 110 => ⟨S_, .f32⟩
  | 111 => ⟨S4x16, .f32⟩
  | 112 => ⟨S4x16, .f32⟩
  | 113 => ⟨S_, .f32⟩
  | 114 => ⟨S4x16, .f32⟩
  | 115 => ⟨S4x16, .f32⟩
  | 116 => ⟨S_, .f32⟩
  | 117 => ⟨S4x16, .f32⟩
  | 118 => ⟨S4x16, .f32⟩
  | 119 => ⟨S_, .f32⟩
  | 120 => ⟨S_, .f32⟩
  | 121 => ⟨S_, .f32⟩
  | 122 => ⟨S_, .f32⟩
  | 123 => ⟨S_, .f32⟩
  | 124 => ⟨S4x16, .f32⟩
  | 125 => ⟨S4x16, .i1⟩
  | 126 => ⟨S_, .f32⟩
  | 127 => ⟨S_, .f32⟩
  | _ => ⟨S4x32x256x512, .f32⟩

abbrev hbmTy0_1 (i : Nat) : BufTy := match i % 128 with
  | 0 => ⟨S4x16, .f32⟩
  | 1 => ⟨S4x16, .f32⟩
  | 2 => ⟨S4x16, .f32⟩
  | 3 => ⟨S_, .f32⟩
  | 4 => ⟨S_, .f32⟩
  | 5 => ⟨S4x16, .f32⟩
  | 6 => ⟨S4x16, .f32⟩
  | 7 => ⟨S_, .f32⟩
  | 8 => ⟨S4, .f32⟩
  | 9 => ⟨S_, .f32⟩
  | 10 => ⟨S4, .f32⟩
  | 11 => ⟨S4, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | _ => ⟨S4x32x256x512, .f32⟩

abbrev hbmTy (i : Nat) : BufTy := match i / 128 with
  | 0 => hbmTy0_0 i
  | 1 => hbmTy0_1 i
  | _ => ⟨S4x32x256x512, .f32⟩

abbrev bufTy : (tb : Table) → Fin (tcTables nBuf tb) → BufTy
  | .hbm, ⟨i, _⟩ => hbmTy i
  | _, _ => ⟨S4x32x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_3 : Ref sig .tc := ⟨.hbm, 32, rfl⟩
abbrev main_v26 : Ref sig .tc := ⟨.hbm, 33, rfl⟩
abbrev main_v27 : Ref sig .tc := ⟨.hbm, 34, rfl⟩
abbrev main_cst_4 : Ref sig .tc := ⟨.hbm, 35, rfl⟩
abbrev main_v28 : Ref sig .tc := ⟨.hbm, 36, rfl⟩
abbrev main_v29 : Ref sig .tc := ⟨.hbm, 37, rfl⟩
abbrev main_cst_5 : Ref sig .tc := ⟨.hbm, 38, rfl⟩
abbrev main_call0_v0 : Ref sig .tc := ⟨.hbm, 39, rfl⟩
abbrev main_call0_v1 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_call1_v0 : Ref sig .tc := ⟨.hbm, 44, rfl⟩
abbrev main_call1_v1 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_v35 : Ref sig .tc := ⟨.hbm, 51, rfl⟩
abbrev main_cst_9 : Ref sig .tc := ⟨.hbm, 52, rfl⟩
abbrev main_v36 : Ref sig .tc := ⟨.hbm, 53, rfl⟩
abbrev main_v37 : Ref sig .tc := ⟨.hbm, 54, rfl⟩
abbrev main_cst_10 : Ref sig .tc := ⟨.hbm, 55, rfl⟩
abbrev main_v38 : Ref sig .tc := ⟨.hbm, 56, rfl⟩
abbrev main_v39 : Ref sig .tc := ⟨.hbm, 57, rfl⟩
abbrev main_cst_11 : Ref sig .tc := ⟨.hbm, 58, rfl⟩
abbrev main_v40 : Ref sig .tc := ⟨.hbm, 59, rfl⟩
abbrev main_cst_12 : Ref sig .tc := ⟨.hbm, 60, rfl⟩
abbrev main_v41 : Ref sig .tc := ⟨.hbm, 61, rfl⟩
abbrev main_v42 : Ref sig .tc := ⟨.hbm, 62, rfl⟩
abbrev main_cst_13 : Ref sig .tc := ⟨.hbm, 63, rfl⟩
abbrev main_v43 : Ref sig .tc := ⟨.hbm, 64, rfl⟩
abbrev main_cst_14 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_15 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_16 : Ref sig .tc := ⟨.hbm, 83, rfl⟩
abbrev main_call2_v0 : Ref sig .tc := ⟨.hbm, 84, rfl⟩
abbrev main_call2_v1 : Ref sig .tc := ⟨.hbm, 85, rfl⟩
abbrev main_call2_v2 : Ref sig .tc := ⟨.hbm, 86, rfl⟩
abbrev main_v59 : Ref sig .tc := ⟨.hbm, 87, rfl⟩
abbrev main_cst_17 : Ref sig .tc := ⟨.hbm, 88, rfl⟩
abbrev main_v60 : Ref sig .tc := ⟨.hbm, 89, rfl⟩
abbrev main_v61 : Ref sig .tc := ⟨.hbm, 90, rfl⟩
abbrev main_cst_18 : Ref sig .tc := ⟨.hbm, 91, rfl⟩
abbrev main_v62 : Ref sig .tc := ⟨.hbm, 92, rfl⟩
abbrev main_v63 : Ref sig .tc := ⟨.hbm, 93, rfl⟩
abbrev main_cst_19 : Ref sig .tc := ⟨.hbm, 94, rfl⟩
abbrev main_call3_v0 : Ref sig .tc := ⟨.hbm, 95, rfl⟩
abbrev main_call3_v1 : Ref sig .tc := ⟨.hbm, 96, rfl⟩
abbrev main_v64 : Ref sig .tc := ⟨.hbm, 97, rfl⟩
abbrev main_v65 : Ref sig .tc := ⟨.hbm, 98, rfl⟩
abbrev main_cst_20 : Ref sig .tc := ⟨.hbm, 99, rfl⟩
abbrev main_call4_v0 : Ref sig .tc := ⟨.hbm, 100, rfl⟩
abbrev main_call4_v1 : Ref sig .tc := ⟨.hbm, 101, rfl⟩
abbrev main_v66 : Ref sig .tc := ⟨.hbm, 102, rfl⟩
abbrev main_cst_21 : Ref sig .tc := ⟨.hbm, 103, rfl⟩
abbrev main_call5_v0 : Ref sig .tc := ⟨.hbm, 104, rfl⟩
abbrev main_call5_v1 : Ref sig .tc := ⟨.hbm, 105, rfl⟩
abbrev main_call5_v2 : Ref sig .tc := ⟨.hbm, 106, rfl⟩
abbrev main_v67 : Ref sig .tc := ⟨.hbm, 107, rfl⟩
abbrev main_cst_22 : Ref sig .tc := ⟨.hbm, 108, rfl⟩
abbrev main_v68 : Ref sig .tc := ⟨.hbm, 109, rfl⟩
abbrev main_cst_23 : Ref sig .tc := ⟨.hbm, 110, rfl⟩
abbrev main_v69 : Ref sig .tc := ⟨.hbm, 111, rfl⟩
abbrev main_v70 : Ref sig .tc := ⟨.hbm, 112, rfl⟩
abbrev main_cst_24 : Ref sig .tc := ⟨.hbm, 113, rfl⟩
abbrev main_v71 : Ref sig .tc := ⟨.hbm, 114, rfl⟩
abbrev main_v72 : Ref sig .tc := ⟨.hbm, 115, rfl⟩
abbrev main_cst_25 : Ref sig .tc := ⟨.hbm, 116, rfl⟩
abbrev main_v73 : Ref sig .tc := ⟨.hbm, 117, rfl⟩
abbrev main_v74 : Ref sig .tc := ⟨.hbm, 118, rfl⟩
abbrev main_cst_26 : Ref sig .tc := ⟨.hbm, 119, rfl⟩
abbrev main_v75 : Ref sig .tc := ⟨.hbm, 120, rfl⟩
abbrev main_cst_27 : Ref sig .tc := ⟨.hbm, 121, rfl⟩
abbrev main_v76 : Ref sig .tc := ⟨.hbm, 122, rfl⟩
abbrev main_cst_28 : Ref sig .tc := ⟨.hbm, 123, rfl⟩
abbrev main_v77 : Ref sig .tc := ⟨.hbm, 124, rfl⟩
abbrev main_v78 : Ref sig .tc := ⟨.hbm, 125, rfl⟩
abbrev main_cst_29 : Ref sig .tc := ⟨.hbm, 126, rfl⟩
abbrev main_call6_v0 : Ref sig .tc := ⟨.hbm, 127, rfl⟩
abbrev main_call6_v1 : Ref sig .tc := ⟨.hbm, 128, rfl⟩
abbrev main_v79 : Ref sig .tc := ⟨.hbm, 129, rfl⟩
abbrev main_v80 : Ref sig .tc := ⟨.hbm, 130, rfl⟩
abbrev main_cst_30 : Ref sig .tc := ⟨.hbm, 131, rfl⟩
abbrev main_call7_v0 : Ref sig .tc := ⟨.hbm, 132, rfl⟩
abbrev main_call7_v1 : Ref sig .tc := ⟨.hbm, 133, rfl⟩
abbrev main_v81 : Ref sig .tc := ⟨.hbm, 134, rfl⟩
abbrev main_cst_31 : Ref sig .tc := ⟨.hbm, 135, rfl⟩
abbrev main_v82 : Ref sig .tc := ⟨.hbm, 136, rfl⟩
abbrev main_cst_32 : Ref sig .tc := ⟨.hbm, 137, rfl⟩
abbrev main_v83 : Ref sig .tc := ⟨.hbm, 138, rfl⟩
abbrev main_v84 : Ref sig .tc := ⟨.hbm, 139, rfl⟩
abbrev main_cst_33 : Ref sig .tc := ⟨.hbm, 140, rfl⟩
abbrev main_v85 : Ref sig .tc := ⟨.hbm, 141, rfl⟩
abbrev main_cst_34 : Ref sig .tc := ⟨.hbm, 142, rfl⟩
abbrev main_v86 : Ref sig .tc := ⟨.hbm, 143, rfl⟩
abbrev main_cst_35 : Ref sig .tc := ⟨.hbm, 144, rfl⟩
abbrev main_v87 : Ref sig .tc := ⟨.hbm, 145, rfl⟩
abbrev main_cst_36 : Ref sig .tc := ⟨.hbm, 146, rfl⟩
abbrev main_v88 : Ref sig .tc := ⟨.hbm, 147, rfl⟩
abbrev main_v89 : Ref sig .tc := ⟨.hbm, 148, rfl⟩
abbrev main_cst_37 : Ref sig .tc := ⟨.hbm, 149, rfl⟩
abbrev main_v90 : Ref sig .tc := ⟨.hbm, 150, rfl⟩
abbrev main_v91 : Ref sig .tc := ⟨.hbm, 151, rfl⟩

abbrev nD : Nat := 1
abbrev τ : Topo := Topo.v7x

variable {F : FTy → Type} [FloatOps F]

class Facts₀ : Prop where
  shapeCasts_S4x32x256x512_S4x32x131072 : S4x32x256x512.ShapeCasts S4x32x131072
  shapeCasts_S4x256x512_S4x131072 : S4x256x512.ShapeCasts S4x131072
  bcast_S4x131072_S4x131072x1_0_1 : S4x131072.BroadcastsInDim S4x131072x1 (![0, 1] : Fin 2 → Fin S4x131072x1.rank)
  bcast_S16_S1x1x16_2 : S16.BroadcastsInDim S1x1x16 (![2] : Fin 1 → Fin S1x1x16.rank)
  bcast_S4x131072x1_S4x131072x16_0_1_2 : S4x131072x1.BroadcastsInDim S4x131072x16 (![0, 1, 2] : Fin 3 → Fin S4x131072x16.rank)
  bcast_S1x1x16_S4x131072x16_0_1_2 : S1x1x16.BroadcastsInDim S4x131072x16 (![0, 1, 2] : Fin 3 → Fin S4x131072x16.rank)
  bcast_S_S4x32x16 : S_.BroadcastsInDim S4x32x16 (![] : Fin 0 → Fin S4x32x16.rank)
  reducesTo_S4x32x131072_S4x131072_d1 : S4x32x131072.ReducesTo [1] S4x131072
  h_S_ : 0 < S_.numel
  reducesTo_S4x32x16_S4x16_d1 : S4x32x16.ReducesTo [1] S4x16
  bcast_S_S4x131072x16 : S_.BroadcastsInDim S4x131072x16 (![] : Fin 0 → Fin S4x131072x16.rank)
  bcast_S4x16_S4x1x16_0_2 : S4x16.BroadcastsInDim S4x1x16 (![0, 2] : Fin 2 → Fin S4x1x16.rank)
  bcast_S4x1x16_S4x131072x16_0_1_2 : S4x1x16.BroadcastsInDim S4x131072x16 (![0, 1, 2] : Fin 3 → Fin S4x131072x16.rank)
  reducesTo_S4x131072x16_S4x16_d1 : S4x131072x16.ReducesTo [1] S4x16
  bcast_S_S4x16 : S_.BroadcastsInDim S4x16 (![] : Fin 0 → Fin S4x16.rank)
  reducesTo_S4x16_S4_d1 : S4x16.ReducesTo [1] S4
  bcast_S_S4 : S_.BroadcastsInDim S4 (![] : Fin 0 → Fin S4.rank)
  reducesTo_S4_S_d0 : S4.ReducesTo [0] S_
  bcast_S4x16_S4x16x1_0_1 : S4x16.BroadcastsInDim S4x16x1 (![0, 1] : Fin 2 → Fin S4x16x1.rank)
  bcast_S4x16x1_S4x16x16_0_1_2 : S4x16x1.BroadcastsInDim S4x16x16 (![0, 1, 2] : Fin 3 → Fin S4x16x16.rank)
  bcast_S4x1x16_S4x16x16_0_1_2 : S4x1x16.BroadcastsInDim S4x16x16 (![0, 1, 2] : Fin 3 → Fin S4x16x16.rank)
  bcast_S_S4x16x16 : S_.BroadcastsInDim S4x16x16 (![] : Fin 0 → Fin S4x16x16.rank)
  bcast_S_S16x16 : S_.BroadcastsInDim S16x16 (![] : Fin 0 → Fin S16x16.rank)
  bcast_S16x16_S4x16x16_1_2 : S16x16.BroadcastsInDim S4x16x16 (![1, 2] : Fin 2 → Fin S4x16x16.rank)
  reducesTo_S4x16x16_S4x16_d2 : S4x16x16.ReducesTo [2] S4x16
  reducesTo_S4x16_S_d0_1 : S4x16.ReducesTo [0, 1] S_
  dot_S4x32x131072_S4x131072x16_S4x32x16_2_1_1_2_0_0_wf : DotDims.WF S4x32x131072 S4x131072x16 S4x32x16 [2] [1] [1] [2] [0] [0]
  dot_S4x32x131072_S4x32x16_S4x131072x16_1_1_2_2_0_0_wf : DotDims.WF S4x32x131072 S4x32x16 S4x131072x16 [1] [1] [2] [2] [0] [0]
  dot_S4x32x16_S4x32x16_S4x16x16_1_1_2_2_0_0_wf : DotDims.WF S4x32x16 S4x32x16 S4x16x16 [1] [1] [2] [2] [0] [0]

variable [Facts₀]

def dot_S4x32x131072_S4x131072x16_S4x32x16_2_1_1_2_0_0 : DotDims S4x32x131072 S4x131072x16 S4x32x16 where
  lhsContracting := [2]
  rhsContracting := [1]
  lhsNonContracting := [1]
  rhsNonContracting := [2]
  lhsBatch := [0]
  rhsBatch := [0]
  wf := dot_S4x32x131072_S4x131072x16_S4x32x16_2_1_1_2_0_0_wf
def dot_S4x32x131072_S4x32x16_S4x131072x16_1_1_2_2_0_0 : DotDims S4x32x131072 S4x32x16 S4x131072x16 where
  lhsContracting := [1]
  rhsContracting := [1]
  lhsNonContracting := [2]
  rhsNonContracting := [2]
  lhsBatch := [0]
  rhsBatch := [0]
  wf := dot_S4x32x131072_S4x32x16_S4x131072x16_1_1_2_2_0_0_wf
def dot_S4x32x16_S4x32x16_S4x16x16_1_1_2_2_0_0 : DotDims S4x32x16 S4x32x16 S4x16x16 where
  lhsContracting := [1]
  rhsContracting := [1]
  lhsNonContracting := [2]
  rhsNonContracting := [2]
  lhsBatch := [0]
  rhsBatch := [0]
  wf := dot_S4x32x16_S4x32x16_S4x16x16_1_1_2_2_0_0_wf

class Facts : Prop extends Facts₀ where

variable [Facts]
-- ==== Proof.KernelRun.lean ====
/-
  The idealized kernel's run, with every buffer's final contents.

  @main is a list of segments: two reshapes, the first region, four host operations, the second region, and thirteen
  stretches of host operations. Every weakly fair execution from any memory with zero counters terminates without a
  fault, and every buffer that outlives @main ends at the contents the fold of the segments gives it: a stretch applies
  its operations, a region leaves each of its arrays at what its write-backs leave and touches nothing else.
-/
import proofs.«156110_j67276367725273_1_alg».proof.Proof.Gen.KernelIdeal.Frame

set_option maxRecDepth 16384

noncomputable section

namespace Cert.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and in every final state each buffer that is not
    a region's own staging buffer holds what the fold of the segments leaves in it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W17 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h => h)

end Cert.KernelRun

end
-- ==== Proof.Tail.lean ====
/-
  The host operations that turn the per-cluster sums into the four scalar losses, as functions of their operands over the
  extended reals.

  * muOf s         — the cluster means: the per-cluster feature sums s divided by the pixel count 131072.
  * sqmuOf mu      — [4, 16]: at (n, k) the squared norm over the 32 channels of the mean of cluster k.
  * vOf vs         — the mean distance: the per-cluster distance sums divided by the pixel count.
  * lossVar v      — the variance term: the hinge max (v - 0.2) 0, averaged over the 16 clusters, then over the 4 batches.
  * lossDist mu q  — the separation term: the pairwise distances of the means from the expanded square
                     q (n, a) + q (n, b) - 2 * <mu a, mu b> (set to 1 on the diagonal before the clamp and the root, and the
                     root set to 0 on the diagonal and where the clamped square is not positive), summed over b and divided
                     by 15, then the hinge max (0.4 - .) 0 summed over all (n, a) and divided by 64.
  * lossNorm q     — the regulariser: the root of q where it is positive (else 0), averaged over clusters, then batches.
  * lossTotal a b c — 1 * a + 1 * b + 0.001 * c.
-/
import proofs.«156110_j67276367725273_1_alg».proof.Proof.Gen.ReferenceIdeal.Read

noncomputable section

namespace Cert.Tail

open Cert.ReferenceIdeal Cert.ReferenceIdeal.Gen Idealize.ShloMosaic Idealize.ShloMosaic.TcCoe Idealize.SL.Sem Idealize.ShloMosaic.StableHlo

/-- The cluster means: each per-cluster sum divided by the number of pixels, 131072. -/
def muOf (s : FVec Ideal S4x32x16 .f32) : FVec Ideal S4x32x16 .f32 :=
  Host.divf (F := Ideal) s
    (broadcastInDim S4x32x16 ![] bcast_S_S4x32x16 (constant (F := Ideal) S_ .f32 0x48000000#32))

/-- The squared norm of each cluster mean: the sum over the channel axis of mu * mu, from 0. -/
def sqmuOf (mu : FVec Ideal S4x32x16 .f32) : FVec Ideal S4x16 .f32 :=
  Host.reduceAdd (F := Ideal) (mulf mu mu) (constant (F := Ideal) S_ .f32 0x00000000#32) reducesTo_S4x32x16_S4x16_d1 h_S_

/-- The mean distance to the cluster mean: each per-cluster distance sum divided by the number of pixels. -/
def vOf (vs : FVec Ideal S4x16 .f32) : FVec Ideal S4x16 .f32 :=
  Host.divf (F := Ideal) vs
    (broadcastInDim S4x16 ![] bcast_S_S4x16 (constant (F := Ideal) S_ .f32 0x48000000#32))

/-- The variance term: max (v - 0.2) 0, summed over clusters and divided by 16, summed over batches and divided by 4. -/
def lossVar (v : FVec Ideal S4x16 .f32) : FVec Ideal S_ .f32 :=
  let margin : FVec Ideal S4x16 .f32 := broadcastInDim S4x16 ![] bcast_S_S4x16 (constant (F := Ideal) S_ .f32 0x3E4CCCCD#32)
  let over : FVec Ideal S4x16 .f32 := subf v margin
  let zero : FVec Ideal S4x16 .f32 := broadcastInDim S4x16 ![] bcast_S_S4x16 (constant (F := Ideal) S_ .f32 0x00000000#32)
  let hinge : FVec Ideal S4x16 .f32 := maximumf over zero
  let perBatch : FVec Ideal S4 .f32 :=
    Host.reduceAdd (F := Ideal) hinge (constant (F := Ideal) S_ .f32 0x00000000#32) reducesTo_S4x16_S4_d1 h_S_
  let sixteen : FVec Ideal S4 .f32 := broadcastInDim S4 ![] bcast_S_S4 (constant (F := Ideal) S_ .f32 0x41800000#32)
  let avg : FVec Ideal S4 .f32 := Host.divf (F := Ideal) perBatch sixteen
  let total : FVec Ideal S_ .f32 :=
    Host.reduceAdd (F := Ideal) avg (constant (F := Ideal) S_ .f32 0x00000000#32) reducesTo_S4_S_d0 h_S_
  Host.divf (F := Ideal) total (constant (F := Ideal) S_ .f32 0x40800000#32)

/-- The separation term, from the means and their squared norms. -/
def lossDist (mu : FVec Ideal S4x32x16 .f32) (sqmu : FVec Ideal S4x16 .f32) : FVec Ideal S_ .f32 :=
  -- the inner products of the means of clusters a and b
  let gram : FVec Ideal S4x16x16 .f32 :=
    Host.dotGeneral (F := Ideal) dot_S4x32x16_S4x32x16_S4x16x16_1_1_2_2_0_0 none mu mu
  let qa1 : FVec Ideal S4x16x1 .f32 := broadcastInDim S4x16x1 ![0, 1] bcast_S4x16_S4x16x1_0_1 sqmu
  let qb1 : FVec Ideal S4x1x16 .f32 := broadcastInDim S4x1x16 ![0, 2] bcast_S4x16_S4x1x16_0_2 sqmu
  let qa : FVec Ideal S4x16x16 .f32 := broadcastInDim S4x16x16 ![0, 1, 2] bcast_S4x16x1_S4x16x16_0_1_2 qa1
  let qb : FVec Ideal S4x16x16 .f32 := broadcastInDim S4x16x16 ![0, 1, 2] bcast_S4x1x16_S4x16x16_0_1_2 qb1
  let qsum : FVec Ideal S4x16x16 .f32 := addf qa qb
  let two : FVec Ideal S4x16x16 .f32 := broadcastInDim S4x16x16 ![] bcast_S_S4x16x16 (constant (F := Ideal) S_ .f32 0x40000000#32)
  let twoGram : FVec Ideal S4x16x16 .f32 := mulf two gram
  -- the expanded square of the distance between the means of a and b
  let d2 : FVec Ideal S4x16x16 .f32 := subf qsum twoGram
  -- the diagonal a = b, as one bit
  let rows : IVec S16x16 32 := iotaInDim S16x16 32 0
  let cols : IVec S16x16 32 := iotaInDim S16x16 32 1
  let izero : IVec S16x16 32 := broadcastInDim S16x16 ![] bcast_S_S16x16 (constantI S_ 32 0#32)
  let rows0 : IVec S16x16 32 := addi rows izero
  let diag : IVec S16x16 1 := cmpi .eq rows0 cols
  let diagB : IVec S4x16x16 1 := broadcastInDim S4x16x16 ![1, 2] bcast_S16x16_S4x16x16_1_2 diag
  let oneD : FVec Ideal S4x16x16 .f32 :=
    broadcastInDim S4x16x16 ![] bcast_S_S4x16x16 (id (constant (F := Ideal) S_ .f32 0x3F800000#32))
  let d2' : FVec Ideal S4x16x16 .f32 := select diagB oneD d2
  let zero3 : FVec Ideal S4x16x16 .f32 := broadcastInDim S4x16x16 ![] bcast_S_S4x16x16 (constant (F := Ideal) S_ .f32 0x00000000#32)
  let clamped : FVec Ideal S4x16x16 .f32 := maximumf d2' zero3
  let zero3' : FVec Ideal S4x16x16 .f32 := broadcastInDim S4x16x16 ![] bcast_S_S4x16x16 (constant (F := Ideal) S_ .f32 0x00000000#32)
  let isPos : IVec S4x16x16 1 := cmpf .ogt clamped zero3'
  let oneP : FVec Ideal S4x16x16 .f32 :=
    broadcastInDim S4x16x16 ![] bcast_S_S4x16x16 (id (constant (F := Ideal) S_ .f32 0x3F800000#32))
  let safe : FVec Ideal S4x16x16 .f32 := select isPos clamped oneP
  let root : FVec Ideal S4x16x16 .f32 := Host.sqrt (F := Ideal) safe
  let zeroP : FVec Ideal S4x16x16 .f32 :=
    broadcastInDim S4x16x16 ![] bcast_S_S4x16x16 (id (constant (F := Ideal) S_ .f32 0x00000000#32))
  let dist : FVec Ideal S4x16x16 .f32 := select isPos root zeroP
  let diagB' : IVec S4x16x16 1 := broadcastInDim S4x16x16 ![1, 2] bcast_S16x16_S4x16x16_1_2 diag
  let zeroD : FVec Ideal S4x16x16 .f32 :=
    broadcastInDim S4x16x16 ![] bcast_S_S4x16x16 (id (constant (F := Ideal) S_ .f32 0x00000000#32))
  let distOff : FVec Ideal S4x16x16 .f32 := select diagB' zeroD dist
  let rowSum : FVec Ideal S4x16 .f32 :=
    Host.reduceAdd (F := Ideal) distOff (constant (F := Ideal) S_ .f32 0x00000000#32) reducesTo_S4x16x16_S4x16_d2 h_S_
  let fifteen : FVec Ideal S4x16 .f32 := broadcastInDim S4x16 ![] bcast_S_S4x16 (constant (F := Ideal) S_ .f32 0x41700000#32)
  let meanDist : FVec Ideal S4x16 .f32 := Host.divf (F := Ideal) rowSum fifteen
  let margin : FVec Ideal S4x16 .f32 := broadcastInDim S4x16 ![] bcast_S_S4x16 (constant (F := Ideal) S_ .f32 0x3ECCCCCD#32)
  let short : FVec Ideal S4x16 .f32 := subf margin meanDist
  let zero2 : FVec Ideal S4x16 .f32 := broadcastInDim S4x16 ![] bcast_S_S4x16 (constant (F := Ideal) S_ .f32 0x00000000#32)
  let hinge : FVec Ideal S4x16 .f32 := maximumf short zero2
  let total : FVec Ideal S_ .f32 :=
    Host.reduceAdd (F := Ideal) hinge (constant (F := Ideal) S_ .f32 0x00000000#32) reducesTo_S4x16_S_d0_1 h_S_
  Host.divf (F := Ideal) total (constant (F := Ideal) S_ .f32 0x42800000#32)

/-- The regulariser: the norm of each mean (the root of its squared norm where positive, else 0), averaged over the 16
    clusters, then over the 4 batches. -/
def lossNorm (sqmu : FVec Ideal S4x16 .f32) : FVec Ideal S_ .f32 :=
  let zero : FVec Ideal S4x16 .f32 := broadcastInDim S4x16 ![] bcast_S_S4x16 (constant (F := Ideal) S_ .f32 0x00000000#32)
  let isPos : IVec S4x16 1 := cmpf .ogt sqmu zero
  let one : FVec Ideal S4x16 .f32 := broadcastInDim S4x16 ![] bcast_S_S4x16 (id (constant (F := Ideal) S_ .f32 0x3F800000#32))
  let safe : FVec Ideal S4x16 .f32 := select isPos sqmu one
  let root : FVec Ideal S4x16 .f32 := Host.sqrt (F := Ideal) safe
  let zero' : FVec Ideal S4x16 .f32 := broadcastInDim S4x16 ![] bcast_S_S4x16 (id (constant (F := Ideal) S_ .f32 0x00000000#32))
  let norm : FVec Ideal S4x16 .f32 := select isPos root zero'
  let perBatch : FVec Ideal S4 .f32 :=
    Host.reduceAdd (F := Ideal) norm (constant (F := Ideal) S_ .f32 0x00000000#32) reducesTo_S4x16_S4_d1 h_S_
  let sixteen : FVec Ideal S4 .f32 := broadcastInDim S4 ![] bcast_S_S4 (constant (F := Ideal) S_ .f32 0x41800000#32)
  let avg : FVec Ideal S4 .f32 := Host.divf (F := Ideal) perBatch sixteen
  let total : FVec Ideal S_ .f32 :=
    Host.reduceAdd (F := Ideal) avg (constant (F := Ideal) S_ .f32 0x00000000#32) reducesTo_S4_S_d0 h_S_
  Host.divf (F := Ideal) total (constant (F := Ideal) S_ .f32 0x40800000#32)

/-- The weighted total: 1 * a + 1 * b + 0.001 * c. -/
def lossTotal (a b c : FVec Ideal S_ .f32) : FVec Ideal S_ .f32 :=
  addf (addf (mulf (constant (F := Ideal) S_ .f32 0x3F800000#32) a) (mulf (constant (F := Ideal) S_ .f32 0x3F800000#32) b))
    (mulf (constant (F := Ideal) S_ .f32 0x3A83126F#32) c)

end Cert.Tail

end
-- ==== Proof.KernelTail.lean ====
/-
  The kernel's host operations read as the shared tail. What the two regions find in their windows: the reshaped
  features and labels, the means of the first region's sums, and the squared norms of the means. What the operations
  after the second region leave in the five result buffers: the tail's functions of the two regions' output arrays.
-/
import proofs.«156110_j67276367725273_1_alg».proof.Proof.Gen.KernelIdeal.Frame
import proofs.«156110_j67276367725273_1_alg».proof.Proof.Tail
import Idealize.ShloMosaic.Lib.StableHlo.Run
import Idealize.ShloMosaic.Lib.Pipeline.Value

noncomputable section

namespace Cert.KernelTail

open Cert.KernelIdeal Cert.KernelIdeal.Gen Cert.Tail Idealize.ShloMosaic Idealize.ShloMosaic.TcCoe Idealize.SL.Sem
open Idealize.ShloMosaic.StableHlo (after_cons after_nil)
open Idealize.ShloMosaic.Pipeline (Dat)

variable (m : (ℓ : Loc nD τ sig) → Buf (Elt Ideal) ℓ) (ρ : Dev nD → PrngReg) (c : Dev nD)

/-- What the first region leaves in its output array: the per-cluster feature sums. -/
abbrev A2 : FVec Ideal S4x32x16 .f32 := (dat0 (V1 m ρ) c).arrAt 2 cfg0.N
/-- What the second region leaves in its output array: the per-cluster distance sums. -/
abbrev A8 : FVec Ideal S4x1x16 .f32 := (dat1 (V3 m ρ) c).arrAt 4 cfg1.N
/-- The features as [4, 32, 131072]. -/
abbrev X : FVec Ideal S4x32x131072 .f32 :=
  shapeCast S4x32x131072 (m ((c : Thread nD τ).loc main_arg0) : FVec Ideal S4x32x256x512 .f32) shapeCasts_S4x32x256x512_S4x32x131072
/-- The labels as [4, 1, 131072]. -/
abbrev Lk : IVec S4x1x131072 32 :=
  shapeCast S4x1x131072 (m ((c : Thread nD τ).loc main_arg1) : IVec S4x256x512 32) shapeCasts_S4x256x512_S4x1x131072

/-! ## What the regions find in their windows -/

/-- The first region's feature window is the reshaped features. -/
theorem V1_main_v0 : V1 m ρ c main_v0 = X m c := by
  show StableHlo.after hostOps0 (W0 m ρ c) (Proc.devRef .tc main_v0) = _
  after_results
  rfl

/-- The first region's label window is the reshaped labels. -/
theorem V1_main_v1 : V1 m ρ c main_v1 = Lk m c := by
  show StableHlo.after hostOps0 (W0 m ρ c) (Proc.devRef .tc main_v1) = _
  after_results
  rfl

/-- The first region's output array at its exit. -/
theorem W2_main_v2 : W2 m ρ c (Proc.devRef .tc main_v2) = A2 m ρ c := W2_arr m ρ c 2

/-- The operations between the regions and the first region itself leave the reshaped features in place. -/
theorem V3_main_v0 : V3 m ρ c main_v0 = X m c := by
  show StableHlo.after hostOps1 (W2 m ρ c) (Proc.devRef .tc main_v0) = _
  after_results
  rw [show W2 m ρ c (Proc.devRef .tc main_v0) = W1 m ρ c (Proc.devRef .tc main_v0) from W2_arr m ρ c 0 |>.trans ((dat0 (V1 m ρ) c).arrAt_in 0 rfl _)]
  exact V1_main_v0 m ρ c

/-- and the reshaped labels. -/
theorem V3_main_v1 : V3 m ρ c main_v1 = Lk m c := by
  show StableHlo.after hostOps1 (W2 m ρ c) (Proc.devRef .tc main_v1) = _
  after_results
  rw [show W2 m ρ c (Proc.devRef .tc main_v1) = W1 m ρ c (Proc.devRef .tc main_v1) from W2_arr m ρ c 1 |>.trans ((dat0 (V1 m ρ) c).arrAt_in 1 rfl _)]
  exact V1_main_v1 m ρ c

/-- The second region's window of means holds the means of the first region's sums. -/
theorem V3_main_v4 : V3 m ρ c main_v4 = muOf (A2 m ρ c) := by
  show StableHlo.after hostOps1 (W2 m ρ c) (Proc.devRef .tc main_v4) = _
  after_results
  rw [W2_main_v2]
  rfl

/-- The squared norms of the means, as the operations between the regions leave them. -/
theorem W3_main_v6 : W3 m ρ c (Proc.devRef .tc main_v6) = sqmuOf (muOf (A2 m ρ c)) := by
  show StableHlo.after hostOps1 (W2 m ρ c) (Proc.devRef .tc main_v6) = _
  after_results
  rw [W2_main_v2]
  rfl

/-- The second region's window of squared norms: the same, reshaped to [4, 1, 16]. -/
theorem V3_main_v7 : V3 m ρ c main_v7 = shapeCast S4x1x16 (sqmuOf (muOf (A2 m ρ c))) shapeCasts_S4x16_S4x1x16 := by
  show StableHlo.after hostOps1 (W2 m ρ c) (Proc.devRef .tc main_v7) = _
  after_results
  rw [W2_main_v2]
  rfl

/-! ## What the second region leaves for the tail -/

/-- Its output array. -/
theorem W4_main_v8 : W4 m ρ c (Proc.devRef .tc main_v8) = A8 m ρ c := W4_arr m ρ c 4

/-- Its window of means is an input: unchanged. -/
theorem W4_main_v4 : W4 m ρ c (Proc.devRef .tc main_v4) = muOf (A2 m ρ c) :=
  (W4_arr m ρ c 2).trans (((dat1 (V3 m ρ) c).arrAt_in 2 rfl _).trans (V3_main_v4 m ρ c))

/-- The squared norms are no window of it: unchanged. -/
theorem W4_main_v6 : W4 m ρ c (Proc.devRef .tc main_v6) = sqmuOf (muOf (A2 m ρ c)) :=
  (W4_of_ne m ρ c main_v6 (by decide)).trans (W3_main_v6 m ρ c)

/-! ## The results of the tail

The thirteen stretches of operations after the second region, unfolded one operation at a time: each result is the
shared tail's function of what the regions left. -/

/-- The fifth result: the means, which no later operation writes. -/
theorem W17_main_v4 : W17 m ρ c (Proc.devRef .tc main_v4) = muOf (A2 m ρ c) := by
  dsimp only [W17, W16, W15, W14, W13, W12, W11, W10, W9, W8, W7, W6, W5]
  after_results_simp
  exact W4_main_v4 m ρ c

set_option maxRecDepth 8192 in
set_option maxHeartbeats 4000000 in
/-- The variance term, of the mean distances of the second region's sums. -/
theorem W17_main_v20 : W17 m ρ c (Proc.devRef .tc main_v20) =
    lossVar (vOf (shapeCast S4x16 (A8 m ρ c) shapeCasts_S4x1x16_S4x16)) := by
  dsimp only [W17, W16, W15, W14, W13, W12, W11, W10, W9, W8, W7, W6, W5]
  after_results_simp
  rw [W4_main_v8]
  rfl

set_option maxRecDepth 8192 in
set_option maxHeartbeats 4000000 in
/-- The separation term, of the means and their squared norms. -/
theorem W17_main_v52 : W17 m ρ c (Proc.devRef .tc main_v52) =
    lossDist (muOf (A2 m ρ c)) (sqmuOf (muOf (A2 m ρ c))) := by
  dsimp only [W17, W16, W15, W14, W13, W12, W11, W10, W9, W8, W7, W6, W5]
  after_results_simp
  rw [W4_main_v4, W4_main_v6]
  rfl

set_option maxRecDepth 8192 in
set_option maxHeartbeats 4000000 in
/-- The regulariser, of the squared norms. -/
theorem W17_main_v62 : W17 m ρ c (Proc.devRef .tc main_v62) = lossNorm (sqmuOf (muOf (A2 m ρ c))) := by
  dsimp only [W17, W16, W15, W14, W13, W12, W11, W10, W9, W8, W7, W6, W5]
  after_results_simp
  rw [W4_main_v6]
  rfl

set_option maxRecDepth 8192 in
set_option maxHeartbeats 8000000 in
/-- The weighted total of the three terms. -/
theorem W17_main_v67 : W17 m ρ c (Proc.devRef .tc main_v67) =
    lossTotal (lossVar (vOf (shapeCast S4x16 (A8 m ρ c) shapeCasts_S4x1x16_S4x16)))
      (lossDist (muOf (A2 m ρ c)) (sqmuOf (muOf (A2 m ρ c))))
      (lossNorm (sqmuOf (muOf (A2 m ρ c)))) := by
  dsimp only [W17, W16, W15, W14, W13, W12, W11, W10, W9, W8, W7, W6, W5]
  after_results_simp
  rw [W4_main_v8, W4_main_v4, W4_main_v6]
  rfl

end Cert.KernelTail

end
-- ==== Proof.Spec.lean ====
/-
  What the instance-clustering loss computes, as functions read at an index over the extended reals.

  features X : [4, 32, 131072] (batch, channel, pixel), labels L : [4, 1, 131072] (a class number per pixel).
  * hot l k        — the one-hot entry: 1 when the label l is the class k, else 0.
  * muSum X L      — [4, 32, 16]: at (n, c, k) the sum over pixels p of X (n, c, p) * hot (L (n, 0, p)) k.
  * dist o sf dt q — the distance of one pixel to one cluster mean from its expanded square
                     s = clampSq o sf dt q = max (o * (sf - 2 * dt) + q) 0 : the square root of s where s is positive, else 0
                     (the inner selection replaces a non-positive s by 1 before the root is taken).
  * vSum X L M Q   — [4, 1, 16]: at (n, 0, k) the sum over pixels p of dist at the pixel's one-hot entry, its squared
                     norm over channels, its inner product with column k of M, and Q (n, 0, k).
  Sums over the 131072 pixels are taken in 4 blocks of 32768 (sum_pixels).
-/
import Idealize.ShloMosaic.PureOps.Ideal.Laws
import Idealize.ShloMosaic.Lib.ValueIdx

noncomputable section

namespace Cert.Spec

open Idealize.ShloMosaic Idealize.ShloMosaic.ValueIdx

abbrev SX : Shape := ⟨3, ![4, 32, 131072]⟩
abbrev SL : Shape := ⟨3, ![4, 1, 131072]⟩
abbrev SM : Shape := ⟨3, ![4, 32, 16]⟩
abbrev SQ : Shape := ⟨3, ![4, 1, 16]⟩

/-- The one-hot entry of label l at class k, as an extended real: 1 when they are equal, else 0. -/
def hot (l : BitVec 32) (k : Fin 16) : EReal :=
  FloatOps.sitofp (F := Ideal) .f32 ((IntOp.cmpi .eq (BitVec.ofNat 32 k.val) l).setWidth 32)

/-- The per-cluster sum of the features over the pixels carrying the cluster's label. -/
def muSum (X : SX.Idx → EReal) (L : SL.Idx → BitVec 32) : SM.Idx → EReal := fun i =>
  ∑ p : Fin 131072, X (ix3 (i 0) (i 1) p) * hot (L (ix3 (i 0) (0 : Fin 1) p)) (i 2)

/-- The clamped expanded square o * (sf - 2 * dt) + q, not below zero. -/
def clampSq (o sf dt q : EReal) : EReal :=
  max (o * (sf - Ideal.ofBits .f32 0x40000000#32 * dt) + q) (Ideal.ofBits .f32 0x00000000#32)

/-- Whether the clamped square is positive, as one bit. -/
def isPos (o sf dt q : EReal) : BitVec 1 :=
  FloatOps.cmpf (F := Ideal) (φ := .f32) .ogt (clampSq o sf dt q) (Ideal.ofBits .f32 0x00000000#32)

/-- The distance: the root of the clamped square where it is positive, else zero. -/
def dist (o sf dt q : EReal) : EReal :=
  Scalar.select (isPos o sf dt q)
    (Ideal.sqrt (Scalar.select (isPos o sf dt q) (clampSq o sf dt q) (Ideal.ofBits .f32 0x3F800000#32)))
    (Ideal.ofBits .f32 0x00000000#32)

/-- The per-cluster sum over pixels of the distance to the cluster mean. -/
def vSum (X : SX.Idx → EReal) (L : SL.Idx → BitVec 32) (M : SM.Idx → EReal) (Q : SQ.Idx → EReal) : SQ.Idx → EReal := fun i =>
  ∑ p : Fin 131072, dist (hot (L (ix3 (i 0) (0 : Fin 1) p)) (i 2))
    (∑ c : Fin 32, X (ix3 (i 0) c p) * X (ix3 (i 0) c p))
    (∑ c : Fin 32, M (ix3 (i 0) c (i 2)) * X (ix3 (i 0) c p))
    (Q (ix3 (i 0) (0 : Fin 1) (i 2)))

/-- Pixel j of block t, as a pixel index. -/
def pix (t : Fin 4) (j : Fin 32768) : Fin 131072 := ⟨t.val * 32768 + j.val, by have := t.isLt; have := j.isLt; omega⟩

/-- A sum over the 131072 pixels is the sum over 4 blocks of the sums over the 32768 pixels of a block: the map
    (t, j) to t * 32768 + j is a bijection from pairs to pixels. -/
theorem sum_pixels {α : Type} [AddCommMonoid α] (f : Fin 131072 → α) :
    ∑ p : Fin 131072, f p = ∑ t : Fin 4, ∑ j : Fin 32768, f (pix t j) := by
  have e := Equiv.sum_comp (finProdFinEquiv (m := 4) (n := 32768)) f
  rw [← e, Fintype.sum_prod_type]
  refine Finset.sum_congr rfl fun t _ => Finset.sum_congr rfl fun j _ => congrArg f (Fin.ext ?_)
  show j.val + 32768 * t.val = t.val * 32768 + j.val
  omega

end Cert.Spec

end
-- ==== Proof.LibDotLast.lean ====
/-
  Matrix products whose two operands are both contracted on their LAST axis, read at an entry.

  Rank 2: an [n, K] operand and an [M, K] operand into [n, M] (the right operand "transposed"): entry (p, c) is the
  sum over k of L (p, k) * R (c, k). Rank 3, batched on the leading axis: [B, n, K] and [B, M, K] into [B, n, M]:
  entry (b, p, c) is the sum over k of L (b, p, k) * R (b, c, k). In both, the sum over the dimension numbers'
  contraction index is re-indexed by the one contracted coordinate; the other coordinates of the two operand indices
  are read off the output index. Over the extended reals a kernel's matrix unit into a zero accumulator and the host's
  dot_general are both this sum: nothing is left of rounding or of the order of accumulation.
-/
import Idealize.ShloMosaic.PureOps.Ideal.Laws
import Idealize.ShloMosaic.Lib.ValueIdx

noncomputable section

namespace Cert.LibDotLast

open Idealize.ShloMosaic Idealize.ShloMosaic.ValueIdx

section Rank2

variable {n K M : Nat}

/-- Dimension numbers of a rank-2 product contracting both last axes, no batch axis. -/
structure IsLast2 (d : DotDims ⟨2, ![n, K]⟩ ⟨2, ![M, K]⟩ ⟨2, ![n, M]⟩) : Prop where
  lc : d.lhsContracting = [1]
  rc : d.rhsContracting = [1]
  ln : d.lhsNonContracting = [0]
  rn : d.rhsNonContracting = [0]
  lb : d.lhsBatch = []
  rb : d.rhsBatch = []

/-- The contraction sum at output index i is the sum over the contracted coordinate k of (i 0, k) against (i 1, k). -/
theorem sum_contr2 {α : Type} [AddCommMonoid α] (d : DotDims ⟨2, ![n, K]⟩ ⟨2, ![M, K]⟩ ⟨2, ![n, M]⟩) (hd : IsLast2 d)
    (f : (⟨2, ![n, K]⟩ : Shape).Idx → (⟨2, ![M, K]⟩ : Shape).Idx → α) (i : (⟨2, ![n, M]⟩ : Shape).Idx) :
    ∑ q : d.contr.Idx, f (d.lhsIdx i q) (d.rhsIdx i q) = ∑ k : Fin K, f (ix2 (i 0) k) (ix2 (i 1) k) := by
  obtain ⟨lc, rc, ln, rn, lb, rb, wf⟩ := d
  obtain ⟨h1, h2, h3, h4, h5, h6⟩ := hd
  simp only at h1 h2 h3 h4 h5 h6
  subst h1 h2 h3 h4 h5 h6
  let d : DotDims ⟨2, ![n, K]⟩ ⟨2, ![M, K]⟩ ⟨2, ![n, M]⟩ := ⟨[1], [1], [0], [0], [], [], wf⟩
  show ∑ q : d.contr.Idx, f (d.lhsIdx i q) (d.rhsIdx i q) = _
  rw [← Equiv.sum_comp (contrEquiv1 d K rfl rfl).symm]
  refine Finset.sum_congr rfl fun k _ => ?_
  have hk := contrEquiv1_symm_val d K rfl rfl k
  have el : d.lhsIdx i ((contrEquiv1 d K rfl rfl).symm k) = ix2 (i 0) k := funext fun a => Fin.ext (by
    match a with
    | ⟨0, _⟩ =>
      show (d.lhsIdx i _ 0).val = (i 0).val
      unfold DotDims.lhsIdx
      rw [dif_neg (show ¬(0 : Fin (⟨2, ![n, K]⟩ : Shape).rank) ∈ d.lhsBatch from List.not_mem_nil),
        dif_pos (show (0 : Fin (⟨2, ![n, K]⟩ : Shape).rank) ∈ d.lhsNonContracting from List.mem_singleton.mpr rfl)]
      rfl
    | ⟨1, _⟩ => exact (d.lhsIdx_val_of_single rfl i _).trans hk)
  have er : d.rhsIdx i ((contrEquiv1 d K rfl rfl).symm k) = ix2 (i 1) k := funext fun a => Fin.ext (by
    match a with
    | ⟨0, _⟩ =>
      show (d.rhsIdx i _ 0).val = (i 1).val
      unfold DotDims.rhsIdx
      rw [dif_neg (show ¬(0 : Fin (⟨2, ![M, K]⟩ : Shape).rank) ∈ d.rhsBatch from List.not_mem_nil),
        dif_pos (show (0 : Fin (⟨2, ![M, K]⟩ : Shape).rank) ∈ d.rhsNonContracting from List.mem_singleton.mpr rfl)]
      rfl
    | ⟨1, _⟩ => exact (d.rhsIdx_val_of_single rfl i _).trans hk)
  rw [el, er]
  try rfl

variable {φ₁ φ₂ : FTy}

/-- A kernel's matrix-unit product with such dimension numbers into a zero accumulator, at entry (p, c). -/
theorem matmul_zero_apply (d : DotDims ⟨2, ![n, K]⟩ ⟨2, ![M, K]⟩ ⟨2, ![n, M]⟩) (hd : IsLast2 d) (prec : Option ContractPrecision)
    (lhs : FVec Ideal ⟨2, ![n, K]⟩ φ₁) (rhs : FVec Ideal ⟨2, ![M, K]⟩ φ₂) (p : Fin n) (c : Fin M) :
    FloatOps.matmul d prec lhs rhs (constant ⟨2, ![n, M]⟩ .f32 0x00000000#32) (ix2 p c)
      = ∑ k : Fin K, lhs (ix2 p k) * rhs (ix2 c k) :=
  (Ideal.matmul_constant_zero_apply d prec lhs rhs (ix2 p c)).trans
    (sum_contr2 d hd (fun a b => lhs a * rhs b) (ix2 p c))

end Rank2

section Rank3

variable {B n K M : Nat}

/-- Dimension numbers of a rank-3 product batched on axis 0 and contracting both last axes. -/
structure IsLast3 (d : DotDims ⟨3, ![B, n, K]⟩ ⟨3, ![B, M, K]⟩ ⟨3, ![B, n, M]⟩) : Prop where
  lc : d.lhsContracting = [2]
  rc : d.rhsContracting = [2]
  ln : d.lhsNonContracting = [1]
  rn : d.rhsNonContracting = [1]
  lb : d.lhsBatch = [0]
  rb : d.rhsBatch = [0]

/-- The contraction sum at output index i is the sum over k of (i 0, i 1, k) against (i 0, i 2, k). -/
theorem sum_contr3 {α : Type} [AddCommMonoid α] (d : DotDims ⟨3, ![B, n, K]⟩ ⟨3, ![B, M, K]⟩ ⟨3, ![B, n, M]⟩) (hd : IsLast3 d)
    (f : (⟨3, ![B, n, K]⟩ : Shape).Idx → (⟨3, ![B, M, K]⟩ : Shape).Idx → α) (i : (⟨3, ![B, n, M]⟩ : Shape).Idx) :
    ∑ q : d.contr.Idx, f (d.lhsIdx i q) (d.rhsIdx i q) = ∑ k : Fin K, f (ix3 (i 0) (i 1) k) (ix3 (i 0) (i 2) k) := by
  obtain ⟨lc, rc, ln, rn, lb, rb, wf⟩ := d
  obtain ⟨h1, h2, h3, h4, h5, h6⟩ := hd
  simp only at h1 h2 h3 h4 h5 h6
  subst h1 h2 h3 h4 h5 h6
  let d : DotDims ⟨3, ![B, n, K]⟩ ⟨3, ![B, M, K]⟩ ⟨3, ![B, n, M]⟩ := ⟨[2], [2], [1], [1], [0], [0], wf⟩
  show ∑ q : d.contr.Idx, f (d.lhsIdx i q) (d.rhsIdx i q) = _
  rw [← Equiv.sum_comp (contrEquiv1 d K rfl rfl).symm]
  refine Finset.sum_congr rfl fun k _ => ?_
  have hk := contrEquiv1_symm_val d K rfl rfl k
  have el : d.lhsIdx i ((contrEquiv1 d K rfl rfl).symm k) = ix3 (i 0) (i 1) k := funext fun a => Fin.ext (by
    match a with
    | ⟨0, _⟩ =>
      show (d.lhsIdx i _ 0).val = (i 0).val
      unfold DotDims.lhsIdx
      rw [dif_pos (show (0 : Fin (⟨3, ![B, n, K]⟩ : Shape).rank) ∈ d.lhsBatch from List.mem_singleton.mpr rfl)]
      rfl
    | ⟨1, _⟩ =>
      show (d.lhsIdx i _ 1).val = (i 1).val
      unfold DotDims.lhsIdx
      rw [dif_neg (show ¬(1 : Fin (⟨3, ![B, n, K]⟩ : Shape).rank) ∈ d.lhsBatch from fun h => Nat.one_ne_zero (congrArg Fin.val (List.mem_singleton.mp h))),
        dif_pos (show (1 : Fin (⟨3, ![B, n, K]⟩ : Shape).rank) ∈ d.lhsNonContracting from List.mem_singleton.mpr rfl)]
      rfl
    | ⟨2, _⟩ => exact (d.lhsIdx_val_of_single rfl i _).trans hk)
  have er : d.rhsIdx i ((contrEquiv1 d K rfl rfl).symm k) = ix3 (i 0) (i 2) k := funext fun a => Fin.ext (by
    match a with
    | ⟨0, _⟩ =>
      show (d.rhsIdx i _ 0).val = (i 0).val
      unfold DotDims.rhsIdx
      rw [dif_pos (show (0 : Fin (⟨3, ![B, M, K]⟩ : Shape).rank) ∈ d.rhsBatch from List.mem_singleton.mpr rfl)]
      rfl
    | ⟨1, _⟩ =>
      show (d.rhsIdx i _ 1).val = (i 2).val
      unfold DotDims.rhsIdx
      rw [dif_neg (show ¬(1 : Fin (⟨3, ![B, M, K]⟩ : Shape).rank) ∈ d.rhsBatch from fun h => Nat.one_ne_zero (congrArg Fin.val (List.mem_singleton.mp h))),
        dif_pos (show (1 : Fin (⟨3, ![B, M, K]⟩ : Shape).rank) ∈ d.rhsNonContracting from List.mem_singleton.mpr rfl)]
      rfl
    | ⟨2, _⟩ => exact (d.rhsIdx_val_of_single rfl i _).trans hk)
  rw [el, er]
  try rfl

variable {φ₁ φ₂ : FTy}

/-- The host's dot_general with such dimension numbers, at entry (b, p, c). -/
theorem dotGeneral_apply (d : DotDims ⟨3, ![B, n, K]⟩ ⟨3, ![B, M, K]⟩ ⟨3, ![B, n, M]⟩) (hd : IsLast3 d) (prec : Option ContractPrecision)
    (sched : HostSchedule) (lhs : FVec Ideal ⟨3, ![B, n, K]⟩ φ₁) (rhs : FVec Ideal ⟨3, ![B, M, K]⟩ φ₂)
    (b : Fin B) (p : Fin n) (c : Fin M) :
    FloatOps.dotGeneral d prec sched lhs rhs (ix3 b p c) = ∑ k : Fin K, lhs (ix3 b p k) * rhs (ix3 b c k) :=
  (Ideal.dotGeneral_apply d prec sched lhs rhs (ix3 b p c)).trans
    (sum_contr3 d hd (fun a b => lhs a * rhs b) (ix3 b p c))

end Rank3

end Cert.LibDotLast

end
-- ==== Proof.LibUnitAxes.lean ====
/-
  Small layout reads and a column reduction, at an index.

  A [1, 1, a] array cast to [a] reads at i the operand at (0, 0, i), and an [a] array cast to [1, 1, a] reads at
  (u, v, i) the operand at i: the row-major position is the same. A lane sum of an [a, b] matrix along axis 0 reads at
  column q the sum over the a entries of the column.
-/
import Idealize.ShloMosaic.PureOps.Ideal.Laws
import Idealize.ShloMosaic.Lib.Pipeline.Value
import Idealize.ShloMosaic.Lib.ValueIdx

noncomputable section

namespace Cert.LibUnitAxes

open Idealize.ShloMosaic Idealize.ShloMosaic.ValueIdx

variable {α : Type}

/-- A [1, 1, a] array cast to [a] reads, at i, the operand at (0, 0, i). -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    rw [Nat.zero_mul, Nat.zero_add])

/-- An [a] array cast to [1, 1, a] reads, at (u, v, i), the operand at i. -/
theorem shapeCast_a_11a_apply {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv, Nat.zero_mul, Nat.zero_add])

/-- The reduced index q of a reduction along axis 0 with coordinate k put back is (k, q). -/
theorem lift_col {a b : ℕ} (h : (⟨2, ![a, b]⟩ : Shape).Reduces [0] ⟨1, ![b]⟩) (q : Fin b)
    (k : Fin ((⟨2, ![a, b]⟩ : Shape).size 0)) : h.lift (ix1 q) k = ix2 (⟨k.val, k.isLt⟩ : Fin a) q := by
  funext c; apply Fin.ext
  match c with
  | ⟨0, _⟩ => rfl
  | ⟨1, _⟩ => rfl

/-- A lane sum along axis 0, at column q: the sum of the column. -/
theorem multiReduction_add_col {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ k : Fin a, src (ix2 k q) :=
  (Ideal.multiReduction_add_single src acc h hφ hacc (ix1 q)).trans
    (Finset.sum_congr rfl fun k _ => congrArg src (lift_col h q k))

end Cert.LibUnitAxes

end
-- ==== Proof.Body0.lean ====
/-
  What the first region's body stores, read at an entry.

  The body holds a [1, 32, 32768] tile x of the features and the [1, 1, 32768] tile l of the labels of the same pixels,
  and an accumulator block a : [1, 32, 16]. It stores a + x·hᵀ, where h (k, q) is the one-hot entry of pixel q's label at
  class k: at (0, c, k) that is a (0, c, k) plus the sum over the tile's pixels q of x (0, c, q) * hot (l (0, 0, q)) k.
  The narrowing of both factors to a shorter float format is the identity over the extended reals, and the product into a
  zero accumulator is the plain contraction sum.
-/
import proofs.«156110_j67276367725273_1_alg».proof.Proof.Gen.KernelIdeal.Skeleton
import proofs.«156110_j67276367725273_1_alg».proof.Proof.Spec
import proofs.«156110_j67276367725273_1_alg».proof.Proof.LibDotLast
import proofs.«156110_j67276367725273_1_alg».proof.Proof.LibUnitAxes
import Idealize.ShloMosaic.Lib.ValueLayout
import Idealize.ShloMosaic.Lib.Pipeline.Value
import Idealize.ShloMosaic.Lib.ValueIdx
import Idealize.ShloMosaic.PureOps.Ideal.Laws

noncomputable section

namespace Cert.Body0

open Cert.KernelIdeal Cert.KernelIdeal.Gen Cert.Spec Idealize.ShloMosaic Idealize.ShloMosaic.ValueIdx

/-- The label of pixel q, read through the two casts and the broadcast over the 16 classes. -/
theorem label_read (v5 : IVec S1x1x32768 32) (k : Fin 16) (q : Fin 32768) :
    broadcastTo S16x32768 (shapeCast S1x32768 (shapeCast S32768 v5 shapeCasts_S1x1x32768_S32768) shapeCasts_S32768_S1x32768)
      broadcasts_S1x32768_S16x32768 (ix2 k q) = v5 (ix3 (0 : Fin 1) (0 : Fin 1) q) :=
  (broadcastTo_1b_ab_apply _ _ k q).trans
    ((shapeCast_a_1a_apply _ _ (0 : Fin 1) q).trans (LibUnitAxes.shapeCast_11a_a_apply v5 _ q))

/-- The class number along axis 0 of the [16, 32768] grid of class numbers. -/
theorem iota_read (k : Fin 16) (q : Fin 32768) :
    iota .tc S16x32768 32 [0] iota_S16x32768_d0_w32 (ix2 k q) = BitVec.ofNat 32 k.val := by
  show BitVec.ofNat 32 (0 * 16 + k.val) = _
  rw [Nat.zero_mul, Nat.zero_add]

/-- The one-hot entry of the body: the comparison of the class number with the label, widened and converted. -/
theorem hot_read (v5 : IVec S1x1x32768 32) (k : Fin 16) (q : Fin 32768) :
    (sitofp .f32 (extui 32 (cmpi .eq (iota .tc S16x32768 32 [0] iota_S16x32768_d0_w32)
      (broadcastTo S16x32768 (shapeCast S1x32768 (shapeCast S32768 v5 shapeCasts_S1x1x32768_S32768) shapeCasts_S32768_S1x32768)
        broadcasts_S1x32768_S16x32768)) natLt_1_32) : FVec Ideal S16x32768 .f32) (ix2 k q)
      = hot (v5 (ix3 (0 : Fin 1) (0 : Fin 1) q)) k := by
  show FloatOps.sitofp (F := Ideal) .f32 ((IntOp.cmpi .eq (iota .tc S16x32768 32 [0] iota_S16x32768_d0_w32 (ix2 k q))
    (broadcastTo S16x32768 _ broadcasts_S1x32768_S16x32768 (ix2 k q))).setWidth 32) = _
  rw [label_read, iota_read]
  rfl

theorem isLast2 : LibDotLast.IsLast2 dot_S32x32768_S16x32768_S32x16_1_1_0_0_n_n := ⟨rfl, rfl, rfl, rfl, rfl, rfl⟩

/-- The stored block at (0, c, k): the accumulator's entry plus the tile's contribution to the cluster sum. -/
theorem pay2_apply (v3 : FVec Ideal S1x32x32768 .f32) (v5 : IVec S1x1x32768 32) (v16 : FVec Ideal S1x32x16 .f32)
    (c : Fin 32) (k : Fin 16) :
    k0_pay2 (F := Ideal) v3 v5 v16 (ix3 (0 : Fin 1) c k)
      = v16 (ix3 (0 : Fin 1) c k) + ∑ q : Fin 32768, v3 (ix3 (0 : Fin 1) c q) * hot (v5 (ix3 (0 : Fin 1) (0 : Fin 1) q)) k := by
  unfold k0_pay2
  refine (shapeCast_ab_1ab_apply _ _ (0 : Fin 1) c k).trans ?_
  show shapeCast S32x16 v16 shapeCasts_S1x32x16_S32x16 (ix2 c k) + matmul dot_S32x32768_S16x32768_S32x16_1_1_0_0_n_n none _ _ _ (ix2 c k) = _
  refine congrArg₂ (· + ·) (shapeCast_1ab_ab_apply v16 _ c k) ?_
  refine (LibDotLast.matmul_zero_apply dot_S32x32768_S16x32768_S32x16_1_1_0_0_n_n isLast2 none _ _ c k).trans ?_
  refine Finset.sum_congr rfl fun q _ => ?_
  refine congrArg₂ (· * ·) ?_ ?_
  · exact shapeCast_1ab_ab_apply v3 _ c q
  · exact hot_read v5 k q

end Cert.Body0

end
-- ==== Proof.LibBlockFold.lean ====
/-
  An accumulator carried over the steps of one block row.

  Let `acc m` be what an accumulator holds after step `m`, and `part m` what step `m` adds. If the first step
  of a row (`m = base`) leaves `0 + part base` and every later step `base + (s + 1)` of the row leaves what the
  step before left plus its own part, then after step `base + s` the accumulator is the sum of the parts of the
  steps `base … base + s`. Induction on `s`; holds in any additive commutative monoid, so for extended reals
  with no finiteness.
-/
import Idealize.ShloMosaic.Lib.ValueIdx

namespace Cert.BlockFold

open scoped BigOperators

theorem fold_blocks {α : Type} [AddCommMonoid α] (n : Nat) (acc part : Nat → α) (base : Nat)
    (h0 : acc base = 0 + part base)
    (hs : ∀ s, s + 1 < n → acc (base + (s + 1)) = acc (base + s) + part (base + (s + 1))) :
    ∀ s, s < n → acc (base + s) = ∑ s' ∈ Finset.range (s + 1), part (base + s') := by
  intro s
  induction s with
  | zero =>
    intro _
    rw [Nat.add_zero, h0, zero_add, Finset.sum_range_one, Nat.add_zero]
  | succ s ih =>
    intro h
    rw [hs s h, ih (Nat.lt_of_succ_lt h), Finset.sum_range_succ (fun s' => part (base + s')) (s + 1)]

end Cert.BlockFold
-- ==== Proof.Region0.lean ====
/-
  The first region's result array is the per-cluster pixel sum.

  The grid has 16 points, point t working on batch t / 4 and pixel tile t % 4. The output block of a batch is reset to
  zero at the batch's first tile, each tile adds its contribution x·hᵀ to what the block held, and the block is written
  back after the batch's last tile. So after the last tile the block of batch n holds, at (c, k), the sum over the 4 tiles
  of the sums over a tile's 32768 pixels — the sum over all 131072 pixels p of X (n, c, p) * hot (L (n, 0, p)) k — and
  these blocks, one per batch, tile the [4, 32, 16] array.
-/
import proofs.«156110_j67276367725273_1_alg».proof.Proof.Gen.KernelIdeal.Frame
import proofs.«156110_j67276367725273_1_alg».proof.Proof.Spec
import proofs.«156110_j67276367725273_1_alg».proof.Proof.Body0
import proofs.«156110_j67276367725273_1_alg».proof.Proof.LibBlockFold
import Idealize.ShloMosaic.Lib.Pipeline.Value
import Idealize.ShloMosaic.Lib.Tactic

set_option maxRecDepth 16384

noncomputable section

namespace Cert.Region0

open Cert.KernelIdeal Cert.KernelIdeal.Gen Cert.Spec Idealize.ShloMosaic Idealize.ShloMosaic.TcCoe Idealize.SL.Sem
open Idealize.ShloMosaic.ValueIdx
open Idealize.ShloMosaic.Pipeline (Dat)

theorem hz : (![0, 0, 0] : Fin 3 → Nat) = fun _ => 0 := funext fun a => by fin_cases a <;> rfl

section AnyFloat

variable {F : FTy → Type} [FloatOps F]

/-- A later tile of a batch: the body leaves, in the output block holding xo, the stored value of the tile's two input
    blocks and xo. -/
theorem out_B (c : Dev nD) (i : grid0.Coords) (a2 : Memref sig .tc .vmem S1x32x32768 .f32) (h2 : a2.IsWhole)
    (a3 : Memref sig .tc .vmem S1x1x32768 .i32) (h3 : a3.IsWhole) (a4 : Memref sig .tc .vmem S1x32x16 .f32) (h4 : a4.IsWhole)
    (hc : ¬cond0_0 i) (x0 : Vec F S1x32x32768 .f32) (x1 : Vec F S1x1x32768 .i32) (xo : Vec F S1x32x16 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  rw [View.canon_unit_zero hz]
  simp only [View.readAt_eq_ld, h2.read_unread, h3.read_unread, h4.read_unread, View.ld_unit_zero (S := S1x32x32768) hz,
    View.ld_unit_zero (S := S1x1x32768) hz, View.ld_unit_zero (S := S1x32x16) hz]

/-- The first tile of a batch: the body stores the zero block, reads it back, and leaves the stored value of the tile's
    two input blocks and the zero block. -/
theorem out_A (c : Dev nD) (i : grid0.Coords) (a2 : Memref sig .tc .vmem S1x32x32768 .f32) (h2 : a2.IsWhole)
    (a3 : Memref sig .tc .vmem S1x1x32768 .i32) (h3 : a3.IsWhole) (a4 : Memref sig .tc .vmem S1x32x16 .f32) (h4 : a4.IsWhole)
    (hc : cond0_0 i) (x0 : Vec F S1x32x32768 .f32) (x1 : Vec F S1x1x32768 .i32) :
    out0_A_2 c i a2 h2 a3 h3 a4 h4 hc x0 x1 = k0_pay2 x0 x1 k0_pay1 := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x32x16) hz, View.readCov_unit_zero (S := S1x32x16) _ hz]
  simp only [View.readAt_eq_ld, h2.read_unread, h3.read_unread, View.ld_unit_zero (S := S1x32x32768) hz,
    View.ld_unit_zero (S := S1x1x32768) hz]

/-- The printed index maps over the grid: point t reads batch t / 4, tile t % 4, and writes batch t / 4. -/
theorem idx_facts : ∀ t : Fin cfg0.N, win0_0.index t (0 : Fin 3) = t.val / 4 ∧ win0_0.index t (1 : Fin 3) = 0
    ∧ win0_0.index t (2 : Fin 3) = t.val % 4 ∧ win0_1.index t (0 : Fin 3) = t.val / 4 ∧ win0_1.index t (1 : Fin 3) = 0
    ∧ win0_1.index t (2 : Fin 3) = t.val % 4 ∧ win0_2.index t (0 : Fin 3) = t.val / 4 ∧ win0_2.index t (1 : Fin 3) = 0
    ∧ win0_2.index t (2 : Fin 3) = 0 :=
  (by decide +kernel : ∀ t : Fin grid0.N, _)

variable (V : (c : Dev nD) → (b : Ref sig .tc) → Buf (Elt F) ((c : Thread nD τ).loc b))

/-- The feature block of point t at (0, ch, q) is the feature array at (batch, ch, pixel q of the tile). -/
theorem blk0_read (c : Dev nD) (t : Fin cfg0.N) (n j : Fin 4) (hn : n.val = t.val / 4) (hj : j.val = t.val % 4)
    (ch : Fin 32) (q : Fin 32768) :
    (iblk0 V c 0 t : Vec F S1x32x32768 .f32) (ix3 (0 : Fin 1) ch q)
      = (V c main_v0 : S4x32x131072.Idx → Elt F .f32) (ix3 n ch (pix j q)) := by
  obtain ⟨e0, e1, e2, -⟩ := idx_facts t
  unfold iblk0
  rw [View.read_apply]
  show V c main_v0 _ = V c main_v0 _
  congr 1
  funext a
  apply Fin.ext
  match a with
  | ⟨0, _⟩ => show win0_0.index t (0 : Fin 3) * 1 + 1 * 0 = n.val; omega
  | ⟨1, _⟩ => show win0_0.index t (1 : Fin 3) * 32 + 1 * ch.val = ch.val; omega
  | ⟨2, _⟩ => show win0_0.index t (2 : Fin 3) * 32768 + 1 * q.val = j.val * 32768 + q.val; omega

/-- The label block of point t at (0, 0, q) is the label array at (batch, 0, pixel q of the tile). -/
theorem blk1_read (c : Dev nD) (t : Fin cfg0.N) (n j : Fin 4) (hn : n.val = t.val / 4) (hj : j.val = t.val % 4)
    (q : Fin 32768) :
    (iblk0 V c 1 t : Vec F S1x1x32768 .i32) (ix3 (0 : Fin 1) (0 : Fin 1) q)
      = (V c main_v1 : S4x1x131072.Idx → Elt F .i32) (ix3 n (0 : Fin 1) (pix j q)) := by
  obtain ⟨-, -, -, e0, e1, e2, -⟩ := idx_facts t
  unfold iblk0
  rw [View.read_apply]
  show V c main_v1 _ = V c main_v1 _
  congr 1
  funext a
  apply Fin.ext
  match a with
  | ⟨0, _⟩ => show win0_1.index t (0 : Fin 3) * 1 + 1 * 0 = n.val; omega
  | ⟨1, _⟩ => show win0_1.index t (1 : Fin 3) * 1 + 1 * 0 = 0; omega
  | ⟨2, _⟩ => show win0_1.index t (2 : Fin 3) * 32768 + 1 * q.val = j.val * 32768 + q.val; omega

end AnyFloat

section AtIdeal

variable (V : (c : Dev nD) → (b : Ref sig .tc) → Buf (Elt Ideal) ((c : Thread nD τ).loc b))

/-- The feature array and the label array as the region finds them. -/
abbrev Xa (c : Dev nD) : SX.Idx → EReal := V c main_v0
abbrev La (c : Dev nD) : SL.Idx → BitVec 32 := V c main_v1

/-- The feature block and the label block of point m. -/
def xb (c : Dev nD) (m : ℕ) (h : m < cfg0.N) : FVec Ideal S1x32x32768 .f32 := iblk0 V c 0 ⟨m, h⟩
def lb (c : Dev nD) (m : ℕ) (h : m < cfg0.N) : IVec S1x1x32768 32 := iblk0 V c 1 ⟨m, h⟩

/-- What point m adds to entry (ch, k) of its batch's block: the sum over its tile's pixels. -/
def part (c : Dev nD) (ch : Fin 32) (k : Fin 16) (m : ℕ) : EReal :=
  if h : m < cfg0.N then
    ∑ q : Fin 32768, xb V c m h (ix3 (0 : Fin 1) ch q) * hot (lb V c m h (ix3 (0 : Fin 1) (0 : Fin 1) q)) k
  else 0

/-- Entry (ch, k) of the output block after point m. -/
def acc (c : Dev nD) (ch : Fin 32) (k : Fin 16) (m : ℕ) : EReal :=
  if h : m < cfg0.N then outsAt0 V c m h (ix3 (0 : Fin 1) ch k) else 0

theorem zero_block (ch : Fin 32) (k : Fin 16) : k0_pay1 (F := Ideal) (ix3 (0 : Fin 1) ch k) = 0 :=
  Ideal.ofBits_zero_f32

/-- At a batch's first tile the block is zero plus the tile's part. -/
theorem acc_first (c : Dev nD) (ch : Fin 32) (k : Fin 16) (m : ℕ) (h : m < cfg0.N) (h0 : m % 4 = 0) :
    acc V c ch k m = 0 + part V c ch k m := by
  unfold acc part
  rw [dif_pos h, dif_pos h, outsAt0_A V c ⟨m, h⟩ h0, out_A]
  exact (Body0.pay2_apply (iblk0 V c 0 ⟨m, h⟩) (iblk0 V c 1 ⟨m, h⟩) (k0_pay1 (F := Ideal)) ch k).trans
    (congrArg (· + _) (zero_block ch k))

/-- At a later tile the block is what the tile before left plus the tile's part. -/
theorem acc_later (c : Dev nD) (ch : Fin 32) (k : Fin 16) (m : ℕ) (h : m + 1 < cfg0.N) (h0 : ¬(m + 1) % 4 = 0) :
    acc V c ch k (m + 1) = acc V c ch k m + part V c ch k (m + 1) := by
  unfold acc part
  rw [dif_pos h, dif_pos h, dif_pos (Nat.lt_of_succ_lt h), outsAt0_B V c ⟨m + 1, h⟩ h0, out_B]
  exact Body0.pay2_apply (iblk0 V c 0 ⟨m + 1, h⟩) (iblk0 V c 1 ⟨m + 1, h⟩) (outsAt0 V c m (Nat.lt_of_succ_lt h)) ch k

/-- After a batch's last tile the block holds the sum of the four tiles' parts. -/
theorem acc_last (c : Dev nD) (ch : Fin 32) (k : Fin 16) (n : Fin 4) :
    acc V c ch k (4 * n.val + 3) = ∑ s ∈ Finset.range 4, part V c ch k (4 * n.val + s) := by
  have hN : cfg0.N = 16 := N_0
  have hn := n.isLt
  exact BlockFold.fold_blocks 4 (acc V c ch k) (part V c ch k) (4 * n.val)
    (acc_first V c ch k (4 * n.val) (by omega) (by omega))
    (fun s hs => acc_later V c ch k (4 * n.val + s) (by omega) (by omega)) 3 (by omega)

/-- A tile's part, over the arrays as the region finds them. -/
theorem part_eq (c : Dev nD) (ch : Fin 32) (k : Fin 16) (n j : Fin 4) :
    part V c ch k (4 * n.val + j.val)
      = ∑ q : Fin 32768, Xa V c (ix3 n ch (pix j q)) * hot (La V c (ix3 n (0 : Fin 1) (pix j q))) k := by
  have hN : cfg0.N = 16 := N_0
  have hn := n.isLt
  have hj := j.isLt
  have h : 4 * n.val + j.val < cfg0.N := by omega
  unfold part
  rw [dif_pos h]
  refine Finset.sum_congr rfl fun q _ => ?_
  exact congrArg₂ (· * ·)
    (blk0_read V c ⟨4 * n.val + j.val, h⟩ n j (by show n.val = (4 * n.val + j.val) / 4; omega)
      (by show j.val = (4 * n.val + j.val) % 4; omega) ch q)
    (congrArg (fun l => hot l k) (blk1_read V c ⟨4 * n.val + j.val, h⟩ n j (by show n.val = (4 * n.val + j.val) / 4; omega)
      (by show j.val = (4 * n.val + j.val) % 4; omega) q))

/-- After the last tile of batch n the block holds the specification's entries of batch n. -/
theorem block_last (c : Dev nD) (t : Fin cfg0.N) (h3 : t.val % 4 = 3) (n : Fin 4) (hn : n.val = t.val / 4)
    (ch : Fin 32) (k : Fin 16) :
    outsAt0 V c t.val t.isLt (ix3 (0 : Fin 1) ch k) = muSum (Xa V c) (La V c) (ix3 n ch k) := by
  obtain ⟨tv, ht⟩ := t
  have e : tv = 4 * n.val + 3 := by dsimp only at h3 hn; omega
  subst e
  have e := acc_last V c ch k n
  unfold acc at e
  rw [dif_pos ht] at e
  refine e.trans ?_
  rw [Finset.sum_range]
  refine (Finset.sum_congr rfl fun j _ => part_eq V c ch k n j).trans ?_
  exact (sum_pixels fun p => Xa V c (ix3 n ch p) * hot (La V c (ix3 n (0 : Fin 1) p)) k).symm

/-- What a writing-back point writes is its block of the specification's array. -/
theorem flushed_eq (c : Dev nD) (t : Fin cfg0.N) (hf : (cfg0.win 2).flush t = true) :
    (dat0 V c).flushed 2 t = ((cfg0.win 2).blk t).view.read (Elt Ideal) (muSum (Xa V c) (La V c)) := by
  have hN : cfg0.N = 16 := N_0
  have h3 : t.val % 4 = 3 := (flush0_2 t).mp hf
  have ht := t.isLt
  obtain ⟨-, -, -, -, -, -, e0, e1, e2⟩ := idx_facts t
  show (cfg0.win 2).cut (grid0.coords t) ((dat0 V c).after 2 t) = _
  rw [after0_2]
  funext y
  obtain ⟨u, ch, k, rfl⟩ : ∃ (u : Fin 1) (ch : Fin 32) (k : Fin 16), y = ix3 u ch k := ⟨y 0, y 1, y 2, eq_ix3 y⟩
  obtain rfl : u = 0 := Subsingleton.elim _ _
  have hemb : ((cfg0.win 2).blk t).view.emb (ix3 (0 : Fin 1) ch k) = ix3 (⟨t.val / 4, by omega⟩ : Fin 4) ch k := by
    funext a
    apply Fin.ext
    match a with
    | ⟨0, _⟩ => show win0_2.index t (0 : Fin 3) * 1 + 1 * 0 = t.val / 4; omega
    | ⟨1, _⟩ => show win0_2.index t (1 : Fin 3) * 32 + 1 * ch.val = ch.val; omega
    | ⟨2, _⟩ => show win0_2.index t (2 : Fin 3) * 16 + 1 * k.val = k.val; omega
  have hb := block_last V c t h3 ⟨t.val / 4, by omega⟩ rfl ch k
  generalize muSum (Xa V c) (La V c) = G at hb ⊢
  show outsAt0 V c t.val t.isLt (ix3 (0 : Fin 1) ch k) = G (((cfg0.win 2).blk t).view.emb (ix3 (0 : Fin 1) ch k))
  rw [hemb]
  exact hb

/-- An index of the array is in point t's block iff each coordinate is in the block's range on its axis. -/
theorem mem_blk (t : Fin cfg0.N) (i : S4x32x16.Idx) :
    i ∈ ((cfg0.win 2).blk t).view.set
      ↔ ∀ a : Fin 3, win0_2.index t a * S1x32x16.size a ≤ (i a).val ∧ (i a).val < win0_2.index t a * S1x32x16.size a + S1x32x16.size a := by
  show i ∈ ((View.whole main_v2).slice (win0_2.rect t)).set ↔ _
  rw [View.set_slice_whole, Rect.mem_set_unit]
  exact Iff.rfl

/-- Every index of the array is in the block some writing-back point writes: batch n's by its last tile. -/
theorem cover (i : S4x32x16.Idx) : ∃ t : Fin cfg0.N, (cfg0.win 2).flush t = true ∧ i ∈ ((cfg0.win 2).blk t).view.set := by
  have hN : cfg0.N = 16 := N_0
  have h0 : (i 0).val < 4 := (i 0).isLt
  have h1 : (i 1).val < 32 := (i 1).isLt
  have h2 : (i 2).val < 16 := (i 2).isLt
  have hlt : 4 * (i 0).val + 3 < cfg0.N := by omega
  obtain ⟨-, -, -, -, -, -, e0, e1, e2⟩ := idx_facts ⟨4 * (i 0).val + 3, hlt⟩
  have tv : (⟨4 * (i 0).val + 3, hlt⟩ : Fin cfg0.N).val = 4 * (i 0).val + 3 := rfl
  refine ⟨⟨4 * (i 0).val + 3, hlt⟩, (flush0_2 _).mpr (by rw [tv]; omega), ?_⟩
  rw [mem_blk]
  intro a
  match a with
  | ⟨0, _⟩ => show win0_2.index _ (0 : Fin 3) * 1 ≤ (i 0).val ∧ (i 0).val < win0_2.index _ (0 : Fin 3) * 1 + 1; rw [e0, tv]; omega
  | ⟨1, _⟩ => show win0_2.index _ (1 : Fin 3) * 32 ≤ (i 1).val ∧ (i 1).val < win0_2.index _ (1 : Fin 3) * 32 + 32; rw [e1]; omega
  | ⟨2, _⟩ => show win0_2.index _ (2 : Fin 3) * 16 ≤ (i 2).val ∧ (i 2).val < win0_2.index _ (2 : Fin 3) * 16 + 16; rw [e2]; omega

/-- The region's result array is the per-cluster pixel sum of the arrays it found. -/
theorem final (c : Dev nD) : (dat0 V c).arrAt 2 cfg0.N = muSum (Xa V c) (La V c) :=
  (dat0 V c).arrAt_eq_of_cover 2 (muSum (Xa V c) (La V c)) (flushed_eq V c) cover

end AtIdeal

end Cert.Region0

end
-- ==== Proof.LibPlainDot.lean ====
/-
  A plain matrix product's contraction sum, re-indexed by the contracted coordinate.

  For a dot of an [n, K] operand with a [K, M] operand into [n, M] that contracts the left operand's axis 1 with the
  right operand's axis 0 and has no batch axes, the sum over the contraction index of left(row i, k) * right(k, column i)
  is the sum over k : Fin K of L (i 0, k) * R (k, i 1): what both a kernel's matrix unit and a host dot_general
  compute at an output index over the extended reals.
-/
import Idealize.ShloMosaic.PureOps.Ideal.Laws
import Idealize.ShloMosaic.Lib.ValueIdx

namespace Cert.LibPlainDot

open Idealize.ShloMosaic Idealize.ShloMosaic.ValueIdx

variable {n K M : Nat}

/-- The dimension numbers of a plain product: contract axis 1 with axis 0, keep axis 0 and axis 1, no batch axes. -/
structure IsPlain (d : DotDims ⟨2, ![n, K]⟩ ⟨2, ![K, M]⟩ ⟨2, ![n, M]⟩) : Prop where
  lc : d.lhsContracting = [1]
  rc : d.rhsContracting = [0]
  ln : d.lhsNonContracting = [0]
  rn : d.rhsNonContracting = [1]
  lb : d.lhsBatch = []
  rb : d.rhsBatch = []

/-- The contraction sum of a plain product at output index `i` is the sum over the contracted coordinate. -/
theorem sum_contr {α : Type} [AddCommMonoid α] (d : DotDims ⟨2, ![n, K]⟩ ⟨2, ![K, M]⟩ ⟨2, ![n, M]⟩) (hd : IsPlain d)
    (f : (⟨2, ![n, K]⟩ : Shape).Idx → (⟨2, ![K, M]⟩ : Shape).Idx → α) (i : (⟨2, ![n, M]⟩ : Shape).Idx) :
    ∑ q : d.contr.Idx, f (d.lhsIdx i q) (d.rhsIdx i q) = ∑ k : Fin K, f (ix2 (i 0) k) (ix2 k (i 1)) := by
  obtain ⟨lc, rc, ln, rn, lb, rb, wf⟩ := d
  obtain ⟨h1, h2, h3, h4, h5, h6⟩ := hd
  simp only at h1 h2 h3 h4 h5 h6
  subst h1 h2 h3 h4 h5 h6
  let d : DotDims ⟨2, ![n, K]⟩ ⟨2, ![K, M]⟩ ⟨2, ![n, M]⟩ := ⟨[1], [0], [0], [1], [], [], wf⟩
  show ∑ q : d.contr.Idx, f (d.lhsIdx i q) (d.rhsIdx i q) = _
  rw [← Equiv.sum_comp (contrEquiv1 d K rfl rfl).symm]
  refine Finset.sum_congr rfl fun k _ => ?_
  have hk := contrEquiv1_symm_val d K rfl rfl k
  have el : d.lhsIdx i ((contrEquiv1 d K rfl rfl).symm k) = ix2 (i 0) k := funext fun a => Fin.ext (by
    match a with
    | ⟨0, _⟩ =>
      show (d.lhsIdx i _ 0).val = (i 0).val
      unfold DotDims.lhsIdx
      rw [dif_neg (show ¬(0 : Fin (⟨2, ![n, K]⟩ : Shape).rank) ∈ d.lhsBatch from List.not_mem_nil),
        dif_pos (show (0 : Fin (⟨2, ![n, K]⟩ : Shape).rank) ∈ d.lhsNonContracting from List.mem_singleton.mpr rfl)]
      rfl
    | ⟨1, _⟩ => exact (d.lhsIdx_val_of_single rfl i _).trans hk)
  have er : d.rhsIdx i ((contrEquiv1 d K rfl rfl).symm k) = ix2 k (i 1) := funext fun a => Fin.ext (by
    match a with
    | ⟨0, _⟩ => exact (d.rhsIdx_val_of_single rfl i _).trans hk
    | ⟨1, _⟩ =>
      show (d.rhsIdx i _ 1).val = (i 1).val
      unfold DotDims.rhsIdx
      rw [dif_neg (show ¬(1 : Fin (⟨2, ![K, M]⟩ : Shape).rank) ∈ d.rhsBatch from List.not_mem_nil),
        dif_pos (show (1 : Fin (⟨2, ![K, M]⟩ : Shape).rank) ∈ d.rhsNonContracting from List.mem_singleton.mpr rfl)]
      rfl)
  rw [el, er]
  try rfl

end Cert.LibPlainDot
-- ==== Proof.LibDotApply.lean ====
/-
  A plain matrix product read at an entry, over the extended reals.

  For an [n, K] operand and a [K, M] operand contracted over K with no batch axes, the kernel's matrix-unit product
  into a zero accumulator and the host's dot_general both read, at entry (p, c), the sum over k : Fin K of
  L (p, k) * R (k, c): there is no rounding and no order of accumulation left in either.
-/
import proofs.«156110_j67276367725273_1_alg».proof.Proof.LibPlainDot
import Idealize.ShloMosaic.PureOps.Ideal.Laws
import Idealize.ShloMosaic.Lib.ValueIdx

noncomputable section

namespace Cert.LibDotApply

open Idealize.ShloMosaic Idealize.ShloMosaic.ValueIdx Cert.LibPlainDot

variable {n K M : Nat} {φ₁ φ₂ : FTy}

/-- A kernel's matrix-unit product of plain dimension numbers into a zero accumulator, at entry (p, c). -/
theorem matmul_zero_apply (d : DotDims ⟨2, ![n, K]⟩ ⟨2, ![K, M]⟩ ⟨2, ![n, M]⟩) (hd : IsPlain d) (prec : Option ContractPrecision)
    (lhs : FVec Ideal ⟨2, ![n, K]⟩ φ₁) (rhs : FVec Ideal ⟨2, ![K, M]⟩ φ₂) (p : Fin n) (c : Fin M) :
    FloatOps.matmul d prec lhs rhs (constant ⟨2, ![n, M]⟩ .f32 0x00000000#32) (ix2 p c)
      = ∑ k : Fin K, lhs (ix2 p k) * rhs (ix2 k c) :=
  (Ideal.matmul_constant_zero_apply d prec lhs rhs (ix2 p c)).trans
    (sum_contr d hd (fun a b => lhs a * rhs b) (ix2 p c))

/-- The host's dot_general of plain dimension numbers, at entry (p, c). -/
theorem dotGeneral_apply (d : DotDims ⟨2, ![n, K]⟩ ⟨2, ![K, M]⟩ ⟨2, ![n, M]⟩) (hd : IsPlain d) (prec : Option ContractPrecision)
    (sched : HostSchedule) (lhs : FVec Ideal ⟨2, ![n, K]⟩ φ₁) (rhs : FVec Ideal ⟨2, ![K, M]⟩ φ₂) (p : Fin n) (c : Fin M) :
    FloatOps.dotGeneral d prec sched lhs rhs (ix2 p c) = ∑ k : Fin K, lhs (ix2 p k) * rhs (ix2 k c) :=
  (Ideal.dotGeneral_apply d prec sched lhs rhs (ix2 p c)).trans
    (sum_contr d hd (fun a b => lhs a * rhs b) (ix2 p c))

end Cert.LibDotApply

end
-- ==== Proof.LibKeepdims.lean ====
/-
  Row-wise reductions with kept dimensions, read at an entry.

  For an [a, b] matrix: a sum or a maximum along axis 1 at row p is the sum, or the fold of `max` from the initial
  value, over the b entries of row p — for a lane reduction inside a kernel body and for a host reduction alike; the
  reduced [a] vector cast to an [a, 1] column reads at (p, 0) the vector at p; and an [a, 1] column broadcast to [a, b]
  reads at (p, c) the column at (p, 0). Together these read `reduce(keepdims=True)` followed by a broadcast back.
-/
import Idealize.ShloMosaic.PureOps.Ideal.Laws
import Idealize.ShloMosaic.Lib.Pipeline.Value
import Idealize.ShloMosaic.Lib.ValueIdx

noncomputable section

namespace Cert.LibKeepdims

open Idealize.ShloMosaic Idealize.ShloMosaic.ValueIdx

variable {α : Type}

/-- An [a] vector cast to an [a, 1] column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An [a, 1] column broadcast to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- The reduced index p of a reduction along axis 1 with coordinate k put back is (p, k). -/
theorem lift_row {a b : ℕ} (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext c; apply Fin.ext
  match c with
  | ⟨0, _⟩ => rfl
  | ⟨1, _⟩ => rfl

/-- A lane sum along axis 1, at row p: the sum of the row. -/
theorem multiReduction_add_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- A lane maximum along axis 1, at row p: the fold of `max` from the accumulator's value over the row. -/
theorem multiReduction_max_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f => Finset.fold max (Ideal.ofBits φ acc) f (Finset.univ : Finset (Fin b)))
      (funext fun k => congrArg src (lift_row h p k)))

/-- The host's sum along axis 1, at row p: the initial value plus the sum of the row. -/
theorem hostReduceAdd_row {a b : ℕ} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (p : Fin a) :
    Ideal.hostReduceAdd h' x init (ix1 p) = init + ∑ k : Fin b, x (ix2 p k) :=
  (Ideal.hostReduceAdd_single h' h x init (ix1 p)).trans
    (congrArg (init + ·) (Finset.sum_congr rfl fun k _ => congrArg x (lift_row h p k)))

/-- The host's maximum along axis 1, at row p: the fold of `max` from the initial value over the row. -/
theorem hostReduce_max_row {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  (Host.reduce_eq_fold_single (FloatOps.maximumf (F := Ideal) (φ := φ)) x init h' h hu (ix1 p)).trans
    (congrArg (fun f => Finset.fold max (init (Shape.Idx.first hu)) f (Finset.univ : Finset (Fin b)))
      (funext fun k => congrArg x (lift_row h p k)))

end Cert.LibKeepdims

end
-- ==== Proof.Body1.lean ====
/-
  What the second region's body stores, read at an entry.

  The body holds a [1, 32, 32768] tile x of the features, the [1, 1, 32768] tile l of the labels of the same pixels, the
  [1, 32, 16] block m of cluster means and the [1, 1, 16] block s of their squared norms, and an accumulator a : [1, 1, 16].
  For class k and pixel q of the tile it forms the clamped expanded square
      max (hot (l q) k * (sum_c x (c, q)^2 - 2 * sum_c m (c, k) * x (c, q)) + s k) 0,
  takes its root where it is positive (else 0), and stores a (k) plus the sum of these distances over the tile's pixels.
  The inner product is a matrix product into a zero accumulator of the transposed means with the tile, a plain
  contraction sum over the extended reals; the squared norm is a lane sum down the channel axis.
-/
import proofs.«156110_j67276367725273_1_alg».proof.Proof.Gen.KernelIdeal.Skeleton
import proofs.«156110_j67276367725273_1_alg».proof.Proof.Spec
import proofs.«156110_j67276367725273_1_alg».proof.Proof.Body0
import proofs.«156110_j67276367725273_1_alg».proof.Proof.LibDotApply
import proofs.«156110_j67276367725273_1_alg».proof.Proof.LibKeepdims
import proofs.«156110_j67276367725273_1_alg».proof.Proof.LibUnitAxes
import Idealize.ShloMosaic.Lib.ValueLayout
import Idealize.ShloMosaic.Lib.Pipeline.Value
import Idealize.ShloMosaic.Lib.ValueIdx
import Idealize.ShloMosaic.PureOps.Ideal.Laws

noncomputable section

namespace Cert.Body1

open Cert.KernelIdeal Cert.KernelIdeal.Gen Cert.Spec Idealize.ShloMosaic Idealize.ShloMosaic.ValueIdx

theorem isPlain : LibPlainDot.IsPlain dot_S16x32_S32x32768_S16x32768_1_0_0_1_n_n := ⟨rfl, rfl, rfl, rfl, rfl, rfl⟩

/-- The squared norm over channels of pixel q, broadcast over the classes. -/
theorem sqnorm_read (v3 : FVec Ideal S1x32x32768 .f32) (hφ : FKind.Formats .f32)
    (hacc : (0x00000000#32 : BitVec 32) = FKind.add.neutral .f32 hφ) (k : Fin 16) (q : Fin 32768) :
    broadcastTo S16x32768 (shapeCast S1x32768
        (multiReduction .add [0] S32768 (mulf (shapeCast S32x32768 v3 shapeCasts_S1x32x32768_S32x32768)
          (shapeCast S32x32768 v3 shapeCasts_S1x32x32768_S32x32768)) 0x00000000#32 reduces_S32x32768_S32768 hφ hacc)
        shapeCasts_S32768_S1x32768) broadcasts_S1x32768_S16x32768 (ix2 k q)
      = ∑ c : Fin 32, v3 (ix3 (0 : Fin 1) c q) * v3 (ix3 (0 : Fin 1) c q) :=
  (broadcastTo_1b_ab_apply _ _ k q).trans ((shapeCast_a_1a_apply _ _ (0 : Fin 1) q).trans
    ((LibUnitAxes.multiReduction_add_col _ _ _ hφ hacc q).trans
      (Finset.sum_congr rfl fun c _ => congrArg₂ (· * ·) (shapeCast_1ab_ab_apply v3 _ c q) (shapeCast_1ab_ab_apply v3 _ c q))))

/-- The inner product of pixel q with the mean of class k. -/
theorem inner_read (v3 : FVec Ideal S1x32x32768 .f32) (v7 : FVec Ideal S1x32x16 .f32) (k : Fin 16) (q : Fin 32768) :
    matmul dot_S16x32_S32x32768_S16x32768_1_0_0_1_n_n none
        (truncf .bf16 (transpose S16x32 [1, 0] (shapeCast S32x16 v7 shapeCasts_S1x32x16_S32x16) transposes_S32x16_p1_0_S16x32) bitsLt_bf16_f32)
        (truncf .bf16 (shapeCast S32x32768 v3 shapeCasts_S1x32x32768_S32x32768) bitsLt_bf16_f32)
        (constant S16x32768 .f32 0x00000000#32) (ix2 k q)
      = ∑ c : Fin 32, v7 (ix3 (0 : Fin 1) c k) * v3 (ix3 (0 : Fin 1) c q) :=
  (LibDotApply.matmul_zero_apply dot_S16x32_S32x32768_S16x32768_1_0_0_1_n_n isPlain none _ _ k q).trans
    (Finset.sum_congr rfl fun c _ => congrArg₂ (· * ·)
      ((transpose_ix2_apply _ _ k c).trans (shapeCast_1ab_ab_apply v7 _ c k)) (shapeCast_1ab_ab_apply v3 _ c q))

/-- The squared norm of the mean of class k, broadcast over the pixels. -/
theorem meansq_read (v9 : FVec Ideal S1x1x16 .f32) (k : Fin 16) (q : Fin 32768) :
    broadcastTo S16x32768 (shapeCast S16x1 (shapeCast S16 v9 shapeCasts_S1x1x16_S16) shapeCasts_S16_S16x1)
      broadcasts_S16x1_S16x32768 (ix2 k q) = v9 (ix3 (0 : Fin 1) (0 : Fin 1) k) :=
  (LibKeepdims.broadcastTo_a1_ab_apply _ _ k q).trans
    ((LibKeepdims.shapeCast_a_a1_apply _ _ k (0 : Fin 1)).trans (LibUnitAxes.shapeCast_11a_a_apply v9 _ k))

/-- The clamped expanded square of class k and pixel q. -/
theorem pay3_apply (v3 : FVec Ideal S1x32x32768 .f32) (v5 : IVec S1x1x32768 32) (v7 : FVec Ideal S1x32x16 .f32)
    (v9 : FVec Ideal S1x1x16 .f32) (k : Fin 16) (q : Fin 32768) :
    k1_pay3 (F := Ideal) v3 v5 v7 v9 (ix2 k q)
      = clampSq (hot (v5 (ix3 (0 : Fin 1) (0 : Fin 1) q)) k) (∑ c : Fin 32, v3 (ix3 (0 : Fin 1) c q) * v3 (ix3 (0 : Fin 1) c q))
          (∑ c : Fin 32, v7 (ix3 (0 : Fin 1) c k) * v3 (ix3 (0 : Fin 1) c q)) (v9 (ix3 (0 : Fin 1) (0 : Fin 1) k)) := by
  unfold k1_pay3 clampSq
  simp only [maximumf_apply, addf_apply, mulf_apply, subf_apply, broadcast_apply]
  exact congrArg₂ max (congrArg₂ (· + ·) (congrArg₂ (· * ·) (Body0.hot_read v5 k q)
    (congrArg₂ (· - ·) (sqnorm_read v3 _ _ k q) (congrArg₂ (· * ·) rfl (inner_read v3 v7 k q)))) (meansq_read v9 k q)) rfl

/-- Whether that square is positive. -/
theorem pay4_apply (v3 : FVec Ideal S1x32x32768 .f32) (v5 : IVec S1x1x32768 32) (v7 : FVec Ideal S1x32x16 .f32)
    (v9 : FVec Ideal S1x1x16 .f32) (k : Fin 16) (q : Fin 32768) :
    k1_pay4 (F := Ideal) v3 v5 v7 v9 (ix2 k q)
      = isPos (hot (v5 (ix3 (0 : Fin 1) (0 : Fin 1) q)) k) (∑ c : Fin 32, v3 (ix3 (0 : Fin 1) c q) * v3 (ix3 (0 : Fin 1) c q))
          (∑ c : Fin 32, v7 (ix3 (0 : Fin 1) c k) * v3 (ix3 (0 : Fin 1) c q)) (v9 (ix3 (0 : Fin 1) (0 : Fin 1) k)) := by
  unfold k1_pay4 isPos
  exact congrArg (fun s => FloatOps.cmpf (F := Ideal) (φ := .f32) .ogt s (Ideal.ofBits .f32 0x00000000#32)) (pay3_apply v3 v5 v7 v9 k q)

/-- The stored block at (0, 0, k), over any square, sign bit and replacement arrays: the accumulator's entry plus the sum
    over the tile's pixels of the root of the selected square where the bit is set, else zero. -/
theorem pay1_apply (v33 : FVec Ideal S16x32768 .f32) (v35 : IVec S16x32768 1) (v36 : FVec Ideal S16x32768 .f32)
    (v42 : FVec Ideal S1x1x16 .f32) (k : Fin 16) :
    k1_pay1 (F := Ideal) v33 v35 v36 v42 (ix3 (0 : Fin 1) (0 : Fin 1) k)
      = v42 (ix3 (0 : Fin 1) (0 : Fin 1) k) + ∑ q : Fin 32768, Scalar.select (v35 (ix2 k q))
          (Ideal.sqrt (Scalar.select (v35 (ix2 k q)) (v33 (ix2 k q)) (v36 (ix2 k q)))) (Ideal.ofBits .f32 0x00000000#32) := by
  unfold k1_pay1
  refine (LibUnitAxes.shapeCast_a_11a_apply _ _ (0 : Fin 1) (0 : Fin 1) k).trans ?_
  refine congrArg₂ (· + ·) (LibUnitAxes.shapeCast_11a_a_apply v42 _ k) ?_
  exact LibKeepdims.multiReduction_add_row _ _ _ _ _ k

/-- The stored block of the body at (0, 0, k): the accumulator's entry plus the tile's sum of distances to the mean of
    class k. -/
theorem body_apply (v3 : FVec Ideal S1x32x32768 .f32) (v5 : IVec S1x1x32768 32) (v7 : FVec Ideal S1x32x16 .f32)
    (v9 : FVec Ideal S1x1x16 .f32) (v42 : FVec Ideal S1x1x16 .f32) (k : Fin 16) :
    k1_pay1 (F := Ideal) (k1_pay3 (F := Ideal) v3 v5 v7 v9) (k1_pay4 (F := Ideal) v3 v5 v7 v9) (k1_pay5 (F := Ideal)) v42 (ix3 (0 : Fin 1) (0 : Fin 1) k)
      = v42 (ix3 (0 : Fin 1) (0 : Fin 1) k) + ∑ q : Fin 32768,
          dist (hot (v5 (ix3 (0 : Fin 1) (0 : Fin 1) q)) k) (∑ c : Fin 32, v3 (ix3 (0 : Fin 1) c q) * v3 (ix3 (0 : Fin 1) c q))
            (∑ c : Fin 32, v7 (ix3 (0 : Fin 1) c k) * v3 (ix3 (0 : Fin 1) c q)) (v9 (ix3 (0 : Fin 1) (0 : Fin 1) k)) := by
  refine (pay1_apply _ _ _ v42 k).trans (congrArg (_ + ·) (Finset.sum_congr rfl fun q _ => ?_))
  rw [pay3_apply, pay4_apply]
  rfl

end Cert.Body1

end
-- ==== Proof.Region1.lean ====
/-
  The second region's result array is the per-cluster pixel sum of distances.

  The grid has 16 points, point t working on batch t / 4 and pixel tile t % 4. The [1, 1, 16] output block of a batch is
  reset to zero at the batch's first tile, each tile adds its 16 sums of distances to what the block held, and the block is
  written back after the batch's last tile. Each point also holds the batch's block of cluster means and the block of
  their squared norms. So after the last tile the block of batch n holds, at k, the sum over all 131072 pixels of the
  distance of the pixel to the mean of class k, and these blocks, one per batch, tile the [4, 1, 16] array.
-/
import proofs.«156110_j67276367725273_1_alg».proof.Proof.Gen.KernelIdeal.Frame
import proofs.«156110_j67276367725273_1_alg».proof.Proof.Spec
import proofs.«156110_j67276367725273_1_alg».proof.Proof.Body1
import proofs.«156110_j67276367725273_1_alg».proof.Proof.LibBlockFold
import Idealize.ShloMosaic.Lib.Pipeline.Value
import Idealize.ShloMosaic.Lib.Tactic

set_option maxRecDepth 16384

noncomputable section

namespace Cert.Region1

open Cert.KernelIdeal Cert.KernelIdeal.Gen Cert.Spec Idealize.ShloMosaic Idealize.ShloMosaic.TcCoe Idealize.SL.Sem
open Idealize.ShloMosaic.ValueIdx
open Idealize.ShloMosaic.Pipeline (Dat)

theorem hz : (![0, 0, 0] : Fin 3 → Nat) = fun _ => 0 := funext fun a => by fin_cases a <;> rfl

section AnyFloat

variable {F : FTy → Type} [FloatOps F]

/-- A later tile of a batch: the body leaves, in the output block holding xo, the stored value of the tile's four input
    blocks and xo. -/
theorem out_B (c : Dev nD) (i : grid1.Coords) (a2 : Memref sig .tc .vmem S1x32x32768 .f32) (h2 : a2.IsWhole)
    (a3 : Memref sig .tc .vmem S1x1x32768 .i32) (h3 : a3.IsWhole) (a4 : Memref sig .tc .vmem S1x32x16 .f32) (h4 : a4.IsWhole)
    (a5 : Memref sig .tc .vmem S1x1x16 .f32) (h5 : a5.IsWhole) (a6 : Memref sig .tc .vmem S1x1x16 .f32) (h6 : a6.IsWhole)
    (hc : ¬cond1_0 i) (x0 : Vec F S1x32x32768 .f32) (x1 : Vec F S1x1x32768 .i32) (x2 : Vec F S1x32x16 .f32)
    (x3 : Vec F S1x1x16 .f32) (xo : Vec F S1x1x16 .f32) :
    out1_B_4 c i a2 h2 a3 h3 a4 h4 a5 h5 a6 h6 hc x0 x1 x2 x3 xo
      = k1_pay1 (k1_pay3 x0 x1 x2 x3) (k1_pay4 x0 x1 x2 x3) k1_pay5 xo := by
  unfold out1_B_4
  rw [View.read_writes_eq_canon _ _ _ (cover1_B_4 c i a2 h2 a3 h3 a4 h4 a5 h5 a6 h6 hc x0 x1 x2 x3 xo)]
  unfold kernelRun1_B
  dsimp only
  try sl_unfold_words
  rw [View.canon_unit_zero hz]
  simp only [View.readAt_eq_ld, h2.read_unread, h3.read_unread, h4.read_unread, h5.read_unread, h6.read_unread,
    View.ld_unit_zero (S := S1x32x32768) hz, View.ld_unit_zero (S := S1x1x32768) hz, View.ld_unit_zero (S := S1x32x16) hz,
    View.ld_unit_zero (S := S1x1x16) hz]

/-- The first tile of a batch: the body stores the zero block, reads it back, and leaves the stored value of the tile's
    four input blocks and the zero block. -/
theorem out_A (c : Dev nD) (i : grid1.Coords) (a2 : Memref sig .tc .vmem S1x32x32768 .f32) (h2 : a2.IsWhole)
    (a3 : Memref sig .tc .vmem S1x1x32768 .i32) (h3 : a3.IsWhole) (a4 : Memref sig .tc .vmem S1x32x16 .f32) (h4 : a4.IsWhole)
    (a5 : Memref sig .tc .vmem S1x1x16 .f32) (h5 : a5.IsWhole) (a6 : Memref sig .tc .vmem S1x1x16 .f32) (h6 : a6.IsWhole)
    (hc : cond1_0 i) (x0 : Vec F S1x32x32768 .f32) (x1 : Vec F S1x1x32768 .i32) (x2 : Vec F S1x32x16 .f32)
    (x3 : Vec F S1x1x16 .f32) :
    out1_A_4 c i a2 h2 a3 h3 a4 h4 a5 h5 a6 h6 hc x0 x1 x2 x3
      = k1_pay1 (k1_pay3 x0 x1 x2 x3) (k1_pay4 x0 x1 x2 x3) k1_pay5 k1_pay2 := by
  unfold out1_A_4
  rw [View.read_writes_eq_canon _ _ _ (cover1_A_4 c i a2 h2 a3 h3 a4 h4 a5 h5 a6 h6 hc x0 x1 x2 x3)]
  unfold kernelRun1_A
  dsimp only
  try sl_unfold_words
  rw [View.canon_cons_unit_zero (S := S1x1x16) hz, View.readCov_unit_zero (S := S1x1x16) _ hz]
  simp only [View.readAt_eq_ld, h2.read_unread, h3.read_unread, h4.read_unread, h5.read_unread,
    View.ld_unit_zero (S := S1x32x32768) hz, View.ld_unit_zero (S := S1x1x32768) hz, View.ld_unit_zero (S := S1x32x16) hz,
    View.ld_unit_zero (S := S1x1x16) hz]

/-- The printed index maps over the grid: point t reads batch t / 4 and tile t % 4 of the features and labels, batch
    t / 4 of the means and of their squared norms, and writes batch t / 4. -/
theorem idx_facts : ∀ t : Fin cfg1.N, win1_0.index t (0 : Fin 3) = t.val / 4 ∧ win1_0.index t (1 : Fin 3) = 0
    ∧ win1_0.index t (2 : Fin 3) = t.val % 4 ∧ win1_1.index t (0 : Fin 3) = t.val / 4 ∧ win1_1.index t (1 : Fin 3) = 0
    ∧ win1_1.index t (2 : Fin 3) = t.val % 4 ∧ win1_2.index t (0 : Fin 3) = t.val / 4 ∧ win1_2.index t (1 : Fin 3) = 0
    ∧ win1_2.index t (2 : Fin 3) = 0 ∧ win1_3.index t (0 : Fin 3) = t.val / 4 ∧ win1_3.index t (1 : Fin 3) = 0
    ∧ win1_3.index t (2 : Fin 3) = 0 ∧ win1_4.index t (0 : Fin 3) = t.val / 4 ∧ win1_4.index t (1 : Fin 3) = 0
    ∧ win1_4.index t (2 : Fin 3) = 0 :=
  (by decide +kernel : ∀ t : Fin grid1.N, _)

variable (V : (c : Dev nD) → (b : Ref sig .tc) → Buf (Elt F) ((c : Thread nD τ).loc b))

/-- The feature block of point t at (0, ch, q) is the feature array at (batch, ch, pixel q of the tile). -/
theorem blk0_read (c : Dev nD) (t : Fin cfg1.N) (n j : Fin 4) (hn : n.val = t.val / 4) (hj : j.val = t.val % 4)
    (ch : Fin 32) (q : Fin 32768) :
    (iblk1 V c 0 t : Vec F S1x32x32768 .f32) (ix3 (0 : Fin 1) ch q)
      = (V c main_v0 : S4x32x131072.Idx → Elt F .f32) (ix3 n ch (pix j q)) := by
  obtain ⟨e0, e1, e2, -⟩ := idx_facts t
  unfold iblk1
  rw [View.read_apply]
  show V c main_v0 _ = V c main_v0 _
  congr 1
  funext a
  apply Fin.ext
  match a with
  | ⟨0, _⟩ => show win1_0.index t (0 : Fin 3) * 1 + 1 * 0 = n.val; omega
  | ⟨1, _⟩ => show win1_0.index t (1 : Fin 3) * 32 + 1 * ch.val = ch.val; omega
  | ⟨2, _⟩ => show win1_0.index t (2 : Fin 3) * 32768 + 1 * q.val = j.val * 32768 + q.val; omega

/-- The label block of point t at (0, 0, q) is the label array at (batch, 0, pixel q of the tile). -/
theorem blk1_read (c : Dev nD) (t : Fin cfg1.N) (n j : Fin 4) (hn : n.val = t.val / 4) (hj : j.val = t.val % 4)
    (q : Fin 32768) :
    (iblk1 V c 1 t : Vec F S1x1x32768 .i32) (ix3 (0 : Fin 1) (0 : Fin 1) q)
      = (V c main_v1 : S4x1x131072.Idx → Elt F .i32) (ix3 n (0 : Fin 1) (pix j q)) := by
  obtain ⟨-, -, -, e0, e1, e2, -⟩ := idx_facts t
  unfold iblk1
  rw [View.read_apply]
  show V c main_v1 _ = V c main_v1 _
  congr 1
  funext a
  apply Fin.ext
  match a with
  | ⟨0, _⟩ => show win1_1.index t (0 : Fin 3) * 1 + 1 * 0 = n.val; omega
  | ⟨1, _⟩ => show win1_1.index t (1 : Fin 3) * 1 + 1 * 0 = 0; omega
  | ⟨2, _⟩ => show win1_1.index t (2 : Fin 3) * 32768 + 1 * q.val = j.val * 32768 + q.val; omega

/-- The block of means of point t at (0, ch, k) is the array of means at (batch, ch, k). -/
theorem blk2_read (c : Dev nD) (t : Fin cfg1.N) (n : Fin 4) (hn : n.val = t.val / 4) (ch : Fin 32) (k : Fin 16) :
    (iblk1 V c 2 t : Vec F S1x32x16 .f32) (ix3 (0 : Fin 1) ch k)
      = (V c main_v4 : S4x32x16.Idx → Elt F .f32) (ix3 n ch k) := by
  obtain ⟨-, -, -, -, -, -, e0, e1, e2, -⟩ := idx_facts t
  unfold iblk1
  rw [View.read_apply]
  show V c main_v4 _ = V c main_v4 _
  congr 1
  funext a
  apply Fin.ext
  match a with
  | ⟨0, _⟩ => show win1_2.index t (0 : Fin 3) * 1 + 1 * 0 = n.val; omega
  | ⟨1, _⟩ => show win1_2.index t (1 : Fin 3) * 32 + 1 * ch.val = ch.val; omega
  | ⟨2, _⟩ => show win1_2.index t (2 : Fin 3) * 16 + 1 * k.val = k.val; omega

/-- The block of squared norms of point t at (0, 0, k) is their array at (batch, 0, k). -/
theorem blk3_read (c : Dev nD) (t : Fin cfg1.N) (n : Fin 4) (hn : n.val = t.val / 4) (k : Fin 16) :
    (iblk1 V c 3 t : Vec F S1x1x16 .f32) (ix3 (0 : Fin 1) (0 : Fin 1) k)
      = (V c main_v7 : S4x1x16.Idx → Elt F .f32) (ix3 n (0 : Fin 1) k) := by
  obtain ⟨-, -, -, -, -, -, -, -, -, e0, e1, e2, -⟩ := idx_facts t
  unfold iblk1
  rw [View.read_apply]
  show V c main_v7 _ = V c main_v7 _
  congr 1
  funext a
  apply Fin.ext
  match a with
  | ⟨0, _⟩ => show win1_3.index t (0 : Fin 3) * 1 + 1 * 0 = n.val; omega
  | ⟨1, _⟩ => show win1_3.index t (1 : Fin 3) * 1 + 1 * 0 = 0; omega
  | ⟨2, _⟩ => show win1_3.index t (2 : Fin 3) * 16 + 1 * k.val = k.val; omega

end AnyFloat

section AtIdeal

variable (V : (c : Dev nD) → (b : Ref sig .tc) → Buf (Elt Ideal) ((c : Thread nD τ).loc b))

/-- The four arrays as the region finds them: features, labels, cluster means, their squared norms. -/
abbrev Xa (c : Dev nD) : SX.Idx → EReal := V c main_v0
abbrev La (c : Dev nD) : SL.Idx → BitVec 32 := V c main_v1
abbrev Ma (c : Dev nD) : SM.Idx → EReal := V c main_v4
abbrev Qa (c : Dev nD) : SQ.Idx → EReal := V c main_v7

/-- The four input blocks of point m. -/
def xb (c : Dev nD) (m : ℕ) (h : m < cfg1.N) : FVec Ideal S1x32x32768 .f32 := iblk1 V c 0 ⟨m, h⟩
def lb (c : Dev nD) (m : ℕ) (h : m < cfg1.N) : IVec S1x1x32768 32 := iblk1 V c 1 ⟨m, h⟩
def mb (c : Dev nD) (m : ℕ) (h : m < cfg1.N) : FVec Ideal S1x32x16 .f32 := iblk1 V c 2 ⟨m, h⟩
def qb (c : Dev nD) (m : ℕ) (h : m < cfg1.N) : FVec Ideal S1x1x16 .f32 := iblk1 V c 3 ⟨m, h⟩

/-- What point m adds to entry k of its batch's block: the sum of the distances over its tile's pixels. -/
def part (c : Dev nD) (k : Fin 16) (m : ℕ) : EReal :=
  if h : m < cfg1.N then
    ∑ q : Fin 32768, dist (hot (lb V c m h (ix3 (0 : Fin 1) (0 : Fin 1) q)) k)
      (∑ ch : Fin 32, xb V c m h (ix3 (0 : Fin 1) ch q) * xb V c m h (ix3 (0 : Fin 1) ch q))
      (∑ ch : Fin 32, mb V c m h (ix3 (0 : Fin 1) ch k) * xb V c m h (ix3 (0 : Fin 1) ch q))
      (qb V c m h (ix3 (0 : Fin 1) (0 : Fin 1) k))
  else 0

/-- Entry k of the output block after point m. -/
def acc (c : Dev nD) (k : Fin 16) (m : ℕ) : EReal :=
  if h : m < cfg1.N then outsAt1 V c m h (ix3 (0 : Fin 1) (0 : Fin 1) k) else 0

theorem zero_block (k : Fin 16) : k1_pay2 (F := Ideal) (ix3 (0 : Fin 1) (0 : Fin 1) k) = 0 :=
  Ideal.ofBits_zero_f32

/-- At a batch's first tile the block is zero plus the tile's part. -/
theorem acc_first (c : Dev nD) (k : Fin 16) (m : ℕ) (h : m < cfg1.N) (h0 : m % 4 = 0) :
    acc V c k m = 0 + part V c k m := by
  unfold acc part
  rw [dif_pos h, dif_pos h, outsAt1_A V c ⟨m, h⟩ h0, out_A]
  exact (Body1.body_apply (xb V c m h) (lb V c m h) (mb V c m h) (qb V c m h) (k1_pay2 (F := Ideal)) k).trans
    (congrArg (· + _) (zero_block k))

/-- At a later tile the block is what the tile before left plus the tile's part. -/
theorem acc_later (c : Dev nD) (k : Fin 16) (m : ℕ) (h : m + 1 < cfg1.N) (h0 : ¬(m + 1) % 4 = 0) :
    acc V c k (m + 1) = acc V c k m + part V c k (m + 1) := by
  unfold acc part
  rw [dif_pos h, dif_pos h, dif_pos (Nat.lt_of_succ_lt h), outsAt1_B V c ⟨m + 1, h⟩ h0, out_B]
  exact Body1.body_apply (xb V c (m + 1) h) (lb V c (m + 1) h) (mb V c (m + 1) h) (qb V c (m + 1) h)
    (outsAt1 V c m (Nat.lt_of_succ_lt h)) k

/-- After a batch's last tile the block holds the sum of the four tiles' parts. -/
theorem acc_last (c : Dev nD) (k : Fin 16) (n : Fin 4) :
    acc V c k (4 * n.val + 3) = ∑ s ∈ Finset.range 4, part V c k (4 * n.val + s) := by
  have hN : cfg1.N = 16 := N_1
  have hn := n.isLt
  exact BlockFold.fold_blocks 4 (acc V c k) (part V c k) (4 * n.val)
    (acc_first V c k (4 * n.val) (by omega) (by omega))
    (fun s hs => acc_later V c k (4 * n.val + s) (by omega) (by omega)) 3 (by omega)

/-- A tile's part, over the arrays as the region finds them. -/
theorem part_eq (c : Dev nD) (k : Fin 16) (n j : Fin 4) :
    part V c k (4 * n.val + j.val)
      = ∑ q : Fin 32768, dist (hot (La V c (ix3 n (0 : Fin 1) (pix j q))) k)
          (∑ ch : Fin 32, Xa V c (ix3 n ch (pix j q)) * Xa V c (ix3 n ch (pix j q)))
          (∑ ch : Fin 32, Ma V c (ix3 n ch k) * Xa V c (ix3 n ch (pix j q)))
          (Qa V c (ix3 n (0 : Fin 1) k)) := by
  have hN : cfg1.N = 16 := N_1
  have hn := n.isLt
  have hj := j.isLt
  have h : 4 * n.val + j.val < cfg1.N := by omega
  have hn' : n.val = (⟨4 * n.val + j.val, h⟩ : Fin cfg1.N).val / 4 := by show n.val = (4 * n.val + j.val) / 4; omega
  have hj' : j.val = (⟨4 * n.val + j.val, h⟩ : Fin cfg1.N).val % 4 := by show j.val = (4 * n.val + j.val) % 4; omega
  unfold part
  rw [dif_pos h]
  refine Finset.sum_congr rfl fun q _ => ?_
  have eL : lb V c (4 * n.val + j.val) h (ix3 (0 : Fin 1) (0 : Fin 1) q) = La V c (ix3 n (0 : Fin 1) (pix j q)) :=
    blk1_read V c ⟨4 * n.val + j.val, h⟩ n j hn' hj' q
  have eX : ∀ ch : Fin 32, xb V c (4 * n.val + j.val) h (ix3 (0 : Fin 1) ch q) = Xa V c (ix3 n ch (pix j q)) :=
    fun ch => blk0_read V c ⟨4 * n.val + j.val, h⟩ n j hn' hj' ch q
  have eM : ∀ ch : Fin 32, mb V c (4 * n.val + j.val) h (ix3 (0 : Fin 1) ch k) = Ma V c (ix3 n ch k) :=
    fun ch => blk2_read V c ⟨4 * n.val + j.val, h⟩ n hn' ch k
  have eQ : qb V c (4 * n.val + j.val) h (ix3 (0 : Fin 1) (0 : Fin 1) k) = Qa V c (ix3 n (0 : Fin 1) k) :=
    blk3_read V c ⟨4 * n.val + j.val, h⟩ n hn' k
  rw [eL, eQ]
  exact congrArg₂ (fun a b => dist _ a b _)
    (Finset.sum_congr rfl fun ch _ => congrArg₂ (· * ·) (eX ch) (eX ch))
    (Finset.sum_congr rfl fun ch _ => congrArg₂ (· * ·) (eM ch) (eX ch))

/-- After the last tile of batch n the block holds the specification's entries of batch n. -/
theorem block_last (c : Dev nD) (t : Fin cfg1.N) (h3 : t.val % 4 = 3) (n : Fin 4) (hn : n.val = t.val / 4) (k : Fin 16) :
    outsAt1 V c t.val t.isLt (ix3 (0 : Fin 1) (0 : Fin 1) k)
      = vSum (Xa V c) (La V c) (Ma V c) (Qa V c) (ix3 n (0 : Fin 1) k) := by
  obtain ⟨tv, ht⟩ := t
  have e : tv = 4 * n.val + 3 := by dsimp only at h3 hn; omega
  subst e
  have e := acc_last V c k n
  unfold acc at e
  rw [dif_pos ht] at e
  refine e.trans ?_
  rw [Finset.sum_range]
  refine (Finset.sum_congr rfl fun j _ => part_eq V c k n j).trans ?_
  exact (sum_pixels fun p => dist (hot (La V c (ix3 n (0 : Fin 1) p)) k)
    (∑ ch : Fin 32, Xa V c (ix3 n ch p) * Xa V c (ix3 n ch p))
    (∑ ch : Fin 32, Ma V c (ix3 n ch k) * Xa V c (ix3 n ch p)) (Qa V c (ix3 n (0 : Fin 1) k))).symm

/-- What a writing-back point writes is its block of the specification's array. -/
theorem flushed_eq (c : Dev nD) (t : Fin cfg1.N) (hf : (cfg1.win 4).flush t = true) :
    (dat1 V c).flushed 4 t
      = ((cfg1.win 4).blk t).view.read (Elt Ideal) (vSum (Xa V c) (La V c) (Ma V c) (Qa V c)) := by
  have hN : cfg1.N = 16 := N_1
  have h3 : t.val % 4 = 3 := (flush1_4 t).mp hf
  have ht := t.isLt
  obtain ⟨-, -, -, -, -, -, -, -, -, -, -, -, e0, e1, e2⟩ := idx_facts t
  show (cfg1.win 4).cut (grid1.coords t) ((dat1 V c).after 4 t) = _
  rw [after1_4]
  funext y
  obtain ⟨u, v, k, rfl⟩ : ∃ (u : Fin 1) (v : Fin 1) (k : Fin 16), y = ix3 u v k := ⟨y 0, y 1, y 2, eq_ix3 y⟩
  obtain rfl : u = 0 := Subsingleton.elim _ _
  obtain rfl : v = 0 := Subsingleton.elim _ _
  have hemb : ((cfg1.win 4).blk t).view.emb (ix3 (0 : Fin 1) (0 : Fin 1) k)
      = ix3 (⟨t.val / 4, by omega⟩ : Fin 4) (0 : Fin 1) k := by
    funext a
    apply Fin.ext
    match a with
    | ⟨0, _⟩ => show win1_4.index t (0 : Fin 3) * 1 + 1 * 0 = t.val / 4; omega
    | ⟨1, _⟩ => show win1_4.index t (1 : Fin 3) * 1 + 1 * 0 = 0; omega
    | ⟨2, _⟩ => show win1_4.index t (2 : Fin 3) * 16 + 1 * k.val = k.val; omega
  have hb := block_last V c t h3 ⟨t.val / 4, by omega⟩ rfl k
  generalize vSum (Xa V c) (La V c) (Ma V c) (Qa V c) = G at hb ⊢
  show outsAt1 V c t.val t.isLt (ix3 (0 : Fin 1) (0 : Fin 1) k)
    = G (((cfg1.win 4).blk t).view.emb (ix3 (0 : Fin 1) (0 : Fin 1) k))
  rw [hemb]
  exact hb

/-- An index of the array is in point t's block iff each coordinate is in the block's range on its axis. -/
theorem mem_blk (t : Fin cfg1.N) (i : S4x1x16.Idx) :
    i ∈ ((cfg1.win 4).blk t).view.set
      ↔ ∀ a : Fin 3, win1_4.index t a * S1x1x16.size a ≤ (i a).val ∧ (i a).val < win1_4.index t a * S1x1x16.size a + S1x1x16.size a := by
  show i ∈ ((View.whole main_v8).slice (win1_4.rect t)).set ↔ _
  rw [View.set_slice_whole, Rect.mem_set_unit]
  exact Iff.rfl

/-- Every index of the array is in the block some writing-back point writes: batch n's by its last tile. -/
theorem cover (i : S4x1x16.Idx) : ∃ t : Fin cfg1.N, (cfg1.win 4).flush t = true ∧ i ∈ ((cfg1.win 4).blk t).view.set := by
  have hN : cfg1.N = 16 := N_1
  have h0 : (i 0).val < 4 := (i 0).isLt
  have h1 : (i 1).val < 1 := (i 1).isLt
  have h2 : (i 2).val < 16 := (i 2).isLt
  have hlt : 4 * (i 0).val + 3 < cfg1.N := by omega
  obtain ⟨-, -, -, -, -, -, -, -, -, -, -, -, e0, e1, e2⟩ := idx_facts ⟨4 * (i 0).val + 3, hlt⟩
  have tv : (⟨4 * (i 0).val + 3, hlt⟩ : Fin cfg1.N).val = 4 * (i 0).val + 3 := rfl
  refine ⟨⟨4 * (i 0).val + 3, hlt⟩, (flush1_4 _).mpr (by rw [tv]; omega), ?_⟩
  rw [mem_blk]
  intro a
  match a with
  | ⟨0, _⟩ => show win1_4.index _ (0 : Fin 3) * 1 ≤ (i 0).val ∧ (i 0).val < win1_4.index _ (0 : Fin 3) * 1 + 1; rw [e0, tv]; omega
  | ⟨1, _⟩ => show win1_4.index _ (1 : Fin 3) * 1 ≤ (i 1).val ∧ (i 1).val < win1_4.index _ (1 : Fin 3) * 1 + 1; rw [e1]; omega
  | ⟨2, _⟩ => show win1_4.index _ (2 : Fin 3) * 16 ≤ (i 2).val ∧ (i 2).val < win1_4.index _ (2 : Fin 3) * 16 + 16; rw [e2]; omega

/-- The region's result array is the per-cluster pixel sum of distances over the arrays it found. -/
theorem final (c : Dev nD) : (dat1 V c).arrAt 4 cfg1.N = vSum (Xa V c) (La V c) (Ma V c) (Qa V c) :=
  (dat1 V c).arrAt_eq_of_cover 4 (vSum (Xa V c) (La V c) (Ma V c) (Qa V c)) (flushed_eq V c) cover

end AtIdeal

end Cert.Region1

end
-- ==== Proof.KernelValue.lean ====
/-
  What the idealized kernel returns, as functions of its two argument arrays.

  From features a0 and labels a1: X and L are their reshapes to [4, 32, 131072] and [4, 1, 131072]; the first region leaves
  the per-cluster pixel sums muSum X L; the host divides by the pixel count (the means) and sums their squares over the
  channels (the squared norms); the second region leaves the per-cluster pixel sums of distances to the means; the host
  divides by the pixel count and computes the three losses and their weighted total. The five results are the total, the
  three losses and the means.
-/
import proofs.«156110_j67276367725273_1_alg».proof.Proof.KernelRun
import proofs.«156110_j67276367725273_1_alg».proof.Proof.KernelTail
import proofs.«156110_j67276367725273_1_alg».proof.Proof.Region0
import proofs.«156110_j67276367725273_1_alg».proof.Proof.Region1

noncomputable section

namespace Cert.KernelValue

open Cert.KernelIdeal Cert.KernelIdeal.Gen Cert.Tail Cert.Spec Cert.KernelTail
open Idealize.ShloMosaic Idealize.ShloMosaic.TcCoe Idealize.SL.Sem
open Idealize.ShloMosaic.Pipeline (Dat)

section Functions

variable (a0 : FVec Ideal S4x32x256x512 .f32) (a1 : IVec S4x256x512 32)

/-- The per-cluster pixel sums of the features. -/
def sums : FVec Ideal S4x32x16 .f32 :=
  muSum (shapeCast S4x32x131072 a0 shapeCasts_S4x32x256x512_S4x32x131072) (shapeCast S4x1x131072 a1 shapeCasts_S4x256x512_S4x1x131072)
/-- The cluster means. -/
def means : FVec Ideal S4x32x16 .f32 := muOf (sums a0 a1)
/-- The squared norms of the cluster means. -/
def meanSq : FVec Ideal S4x16 .f32 := sqmuOf (means a0 a1)
/-- The per-cluster pixel sums of the distances to the means. -/
def distSums : FVec Ideal S4x1x16 .f32 :=
  vSum (shapeCast S4x32x131072 a0 shapeCasts_S4x32x256x512_S4x32x131072) (shapeCast S4x1x131072 a1 shapeCasts_S4x256x512_S4x1x131072)
    (means a0 a1) (shapeCast S4x1x16 (meanSq a0 a1) shapeCasts_S4x16_S4x1x16)
/-- The mean distances. -/
def meanDist : FVec Ideal S4x16 .f32 := vOf (shapeCast S4x16 (distSums a0 a1) shapeCasts_S4x1x16_S4x16)
/-- The variance, distance and normalization losses and their weighted total. -/
def lVar : FVec Ideal S_ .f32 := lossVar (meanDist a0 a1)
def lDist : FVec Ideal S_ .f32 := lossDist (means a0 a1) (meanSq a0 a1)
def lNorm : FVec Ideal S_ .f32 := lossNorm (meanSq a0 a1)
def lTotal : FVec Ideal S_ .f32 := lossTotal (lVar a0 a1) (lDist a0 a1) (lNorm a0 a1)

end Functions

variable (m : (ℓ : Loc nD τ sig) → Buf (Elt Ideal) ℓ) (ρ : Dev nD → PrngReg) (c : Dev nD)

/-- The first region's result array is the per-cluster pixel sums of the launch arrays. -/
theorem A2_eq : A2 m ρ c = sums (m ((c : Thread nD τ).loc main_arg0)) (m ((c : Thread nD τ).loc main_arg1)) := by
  refine (Region0.final (V1 m ρ) c).trans ?_
  show muSum (V1 m ρ c main_v0) (V1 m ρ c main_v1) = _
  rw [V1_main_v0, V1_main_v1]
  rfl

/-- The second region's result array is the per-cluster pixel sums of distances of the launch arrays. -/
theorem A8_eq : A8 m ρ c = distSums (m ((c : Thread nD τ).loc main_arg0)) (m ((c : Thread nD τ).loc main_arg1)) := by
  refine (Region1.final (V3 m ρ) c).trans ?_
  show vSum (V3 m ρ c main_v0) (V3 m ρ c main_v1) (V3 m ρ c main_v4) (V3 m ρ c main_v7) = _
  rw [V3_main_v0, V3_main_v1, V3_main_v4, V3_main_v7, A2_eq]
  rfl

/-- Every weakly fair execution of the idealized kernel terminates, nothing faulting, with its five results at these
    functions of the launch arrays and the arguments unchanged. -/
theorem run : θ_run (defs (F := Ideal)) (onTc (τ := τ) (main (F := Ideal))) ⟨m, fun _ => 0, ρ⟩ (fun r => ∀ c : Dev nD,
      r.2.mem ((c.tc : Thread nD τ).loc main_v67) = lTotal (m ((c.tc : Thread nD τ).loc main_arg0)) (m ((c.tc : Thread nD τ).loc main_arg1))
      ∧ r.2.mem ((c.tc : Thread nD τ).loc main_v20) = lVar (m ((c.tc : Thread nD τ).loc main_arg0)) (m ((c.tc : Thread nD τ).loc main_arg1))
      ∧ r.2.mem ((c.tc : Thread nD τ).loc main_v52) = lDist (m ((c.tc : Thread nD τ).loc main_arg0)) (m ((c.tc : Thread nD τ).loc main_arg1))
      ∧ r.2.mem ((c.tc : Thread nD τ).loc main_v62) = lNorm (m ((c.tc : Thread nD τ).loc main_arg0)) (m ((c.tc : Thread nD τ).loc main_arg1))
      ∧ r.2.mem ((c.tc : Thread nD τ).loc main_v4) = means (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := Ideal)) _ _).mono (fun r h c =>
    ⟨(h c _ (mem_uc main_v67 (by decide))).trans ((W17_main_v67 m ρ c).trans (by rw [A8_eq, A2_eq]; rfl)),
     (h c _ (mem_uc main_v20 (by decide))).trans ((W17_main_v20 m ρ c).trans (by rw [A8_eq]; rfl)),
     (h c _ (mem_uc main_v52 (by decide))).trans ((W17_main_v52 m ρ c).trans (by rw [A2_eq]; rfl)),
     (h c _ (mem_uc main_v62 (by decide))).trans ((W17_main_v62 m ρ c).trans (by rw [A2_eq]; rfl)),
     (h c _ (mem_uc main_v4 (by decide))).trans ((W17_main_v4 m ρ c).trans (by rw [A2_eq]; rfl)),
     (h c _ (mem_uc main_arg0 (by decide))).trans (W17_main_arg0 m ρ c),
     (h c _ (mem_uc main_arg1 (by decide))).trans (W17_main_arg1 m ρ c)⟩)
    (KernelRun.run_all m ρ)

end Cert.KernelValue

end
-- ==== Proof.RefValue.lean ====
import proofs.«156110_j67276367725273_1_alg».proof.Proof.Gen.ReferenceIdeal.Read
import proofs.«156110_j67276367725273_1_alg».proof.Proof.Spec

noncomputable section

namespace Cert.RefValue

open Cert.ReferenceIdeal Cert.ReferenceIdeal.Read Cert.Spec Idealize.ShloMosaic Idealize.ShloMosaic.ValueIdx

/-- A one-bit word read as an unsigned number is the real 0 or 1, and so is the same word widened to 32 bits
    (with zeros) and read as a signed number. -/
theorem uitofp_bit (b : BitVec 1) :
    FloatOps.uitofp (F := Ideal) .f32 b = FloatOps.sitofp (F := Ideal) .f32 (b.setWidth 32) := by
  rcases BitVec.eq_zero_or_eq_one b with rfl | rfl
  · show (((0#1 : BitVec 1).toNat : ℝ) : EReal) = ((((0#1 : BitVec 1).setWidth 32).toInt : ℝ) : EReal)
    have h1 : (0#1 : BitVec 1).toNat = 0 := rfl
    have h2 : ((0#1 : BitVec 1).setWidth 32).toInt = 0 := by decide
    rw [h1, h2]; norm_num
  · show (((1#1 : BitVec 1).toNat : ℝ) : EReal) = ((((1#1 : BitVec 1).setWidth 32).toInt : ℝ) : EReal)
    have h1 : (1#1 : BitVec 1).toNat = 1 := rfl
    have h2 : ((1#1 : BitVec 1).setWidth 32).toInt = 1 := by decide
    rw [h1, h2]; norm_num

/-- Equality of two words does not depend on the order in which they are compared. -/
theorem cmpi_eq_comm {w : Nat} (a b : BitVec w) : IntOp.cmpi .eq a b = IntOp.cmpi .eq b a := by
  show BitVec.ofBool (a == b) = BitVec.ofBool (b == a)
  rw [BEq.comm]

variable (x0 : (⟨S4x32x256x512, .f32⟩ : BufTy).Contents (Elt Ideal)) (x1 : (⟨S4x256x512, .i32⟩ : BufTy).Contents (Elt Ideal))

/-- The labels viewed as [4, 131072] at (n, p) and viewed as [4, 1, 131072] at (n, 0, p) are the same label:
    both views read the input at row-major position n * 131072 + p. -/
theorem ref_label (hL : S4x256x512.ShapeCasts Cert.Spec.SL) (n : Fin 4) (p : Fin 131072) :
    val_main_v1 (F := Ideal) x1 (ix2 n p) = shapeCast Cert.Spec.SL x1 hL (ix3 n (0 : Fin 1) p) := by
  rw [val_main_v1_apply]
  symm
  refine shapeCast_apply x1 hL _ _ ?_
  rewrite [Shape.rowMajor_val_three, Shape.rowMajor_val_three]
  have hn : n.val < 4 := n.isLt
  have hp : p.val < 131072 := p.isLt
  show ((n.val * 131072 + p.val) / 131072 * 256 + (n.val * 131072 + p.val) / 512 % 256) * 512 + (n.val * 131072 + p.val) % 512
      = (n.val * 1 + 0) * 131072 + p.val
  omega

/-- The reference's one-hot entry at (n, p, k) is the specification's one-hot entry of the label of pixel p at class k. -/
theorem ref_hot (hL : S4x256x512.ShapeCasts Cert.Spec.SL) (n : Fin 4) (p : Fin 131072) (k : Fin 16) :
    val_main_v8 (F := Ideal) x1 (ix3 n p k) = hot (shapeCast Cert.Spec.SL x1 hL (ix3 n (0 : Fin 1) p)) k := by
  rw [val_main_v8_apply, val_main_v7_apply, val_main_v5_apply, val_main_v2_apply, val_main_v6_apply, val_main_v4_apply,
    val_main_v3_apply, uitofp_bit, cmpi_eq_comm]
  have e : idx_main_v2 (idx_main_v5 (ix3 n p k)) = ix2 n p :=
    funext fun a => Fin.ext (by match a with | ⟨0, _⟩ => rfl | ⟨1, _⟩ => rfl)
  rw [e, ref_label x1 hL n p]
  rfl

/-- The reference's contraction of the features with the one-hot labels over the pixels is the specification's
    per-cluster sum. -/
theorem ref_musum (hL : S4x256x512.ShapeCasts Cert.Spec.SL) :
    val_main_v9 (F := Ideal) x0 x1 = muSum (val_main_v0 (F := Ideal) x0) (shapeCast Cert.Spec.SL x1 hL) := by
  funext i
  obtain ⟨n, c, k, rfl⟩ : ∃ n c k, i = ix3 n c k := ⟨i 0, i 1, i 2, eq_ix3 i⟩
  rw [val_main_v9_apply]
  show _ = ∑ p : Fin 131072, val_main_v0 (F := Ideal) x0 (ix3 n c p) * hot (shapeCast Cert.Spec.SL x1 hL (ix3 n (0 : Fin 1) p)) k
  refine Finset.sum_congr rfl fun p _ => ?_
  have el : lidx_main_v9 (ix3 n c k) p = ix3 n c p :=
    funext fun a => Fin.ext (by match a with | ⟨0, _⟩ => rfl | ⟨1, _⟩ => rfl | ⟨2, _⟩ => rfl)
  have er : ridx_main_v9 (ix3 n c k) p = ix3 n p k :=
    funext fun a => Fin.ext (by match a with | ⟨0, _⟩ => rfl | ⟨1, _⟩ => rfl | ⟨2, _⟩ => rfl)
  rw [el, er, ref_hot x1 hL n p k]

/-- The reference's squared norm of the features of pixel (n, p) over the channels; its initial value is zero. -/
theorem ref_sqnorm (n : Fin 4) (p : Fin 131072) :
    val_main_v13 (F := Ideal) x0 (ix2 n p)
      = ∑ c : Fin 32, val_main_v0 (F := Ideal) x0 (ix3 n c p) * val_main_v0 (F := Ideal) x0 (ix3 n c p) := by
  rw [val_main_v13_apply, val_main_cst_0_apply, Ideal.ofBits_def, Ideal.ofBits_zero_f32, zero_add]
  refine Finset.sum_congr rfl fun c _ => ?_
  have e : idx_main_v13 (ix2 n p) c = ix3 n c p :=
    funext fun a => Fin.ext (by match a with | ⟨0, _⟩ => rfl | ⟨1, _⟩ => rfl | ⟨2, _⟩ => rfl)
  rw [val_main_v12_apply, Ideal.mulf_def, e]

/-- The reference's inner product over the channels of the features of pixel (n, p) with column k of the means,
    with the factors in the specification's order. -/
theorem ref_inner (n : Fin 4) (p : Fin 131072) (k : Fin 16) :
    val_main_v14 (F := Ideal) x0 x1 (ix3 n p k)
      = ∑ c : Fin 32, val_main_v11 (F := Ideal) x0 x1 (ix3 n c k) * val_main_v0 (F := Ideal) x0 (ix3 n c p) := by
  rw [val_main_v14_apply]
  refine Finset.sum_congr rfl fun c _ => ?_
  have el : lidx_main_v14 (ix3 n p k) c = ix3 n c p :=
    funext fun a => Fin.ext (by match a with | ⟨0, _⟩ => rfl | ⟨1, _⟩ => rfl | ⟨2, _⟩ => rfl)
  have er : ridx_main_v14 (ix3 n p k) c = ix3 n c k :=
    funext fun a => Fin.ext (by match a with | ⟨0, _⟩ => rfl | ⟨1, _⟩ => rfl | ⟨2, _⟩ => rfl)
  rw [el, er, mul_comm]

/-- The squared norms of the means, broadcast over the pixels, read at (n, p, k) as the entry (n, k). -/
theorem ref_sqmu_bcast (n : Fin 4) (p : Fin 131072) (k : Fin 16) :
    val_main_v24 (F := Ideal) x0 x1 (ix3 n p k) = val_main_v16 (F := Ideal) x0 x1 (ix2 n k) := by
  rw [val_main_v24_apply, val_main_v23_apply]
  exact congrArg (val_main_v16 (F := Ideal) x0 x1)
    (funext fun a => Fin.ext (by match a with | ⟨0, _⟩ => rfl | ⟨1, _⟩ => rfl))

/-- The reference's clamped expanded square at (n, p, k) is the specification's, at the pixel's one-hot entry, its
    squared norm, its inner product with column k of the means, and the squared norm of that column. -/
theorem ref_clampSq (hL : S4x256x512.ShapeCasts Cert.Spec.SL) (n : Fin 4) (p : Fin 131072) (k : Fin 16) :
    val_main_v27 (F := Ideal) x0 x1 (ix3 n p k)
      = clampSq (hot (shapeCast Cert.Spec.SL x1 hL (ix3 n (0 : Fin 1) p)) k)
          (∑ c : Fin 32, val_main_v0 (F := Ideal) x0 (ix3 n c p) * val_main_v0 (F := Ideal) x0 (ix3 n c p))
          (∑ c : Fin 32, val_main_v11 (F := Ideal) x0 x1 (ix3 n c k) * val_main_v0 (F := Ideal) x0 (ix3 n c p))
          (val_main_v16 (F := Ideal) x0 x1 (ix2 n k)) := by
  have e : idx_main_v17 (idx_main_v20 (ix3 n p k)) = ix2 n p :=
    funext fun a => Fin.ext (by match a with | ⟨0, _⟩ => rfl | ⟨1, _⟩ => rfl)
  rw [val_main_v27_apply, val_main_v25_apply, val_main_v22_apply, val_main_v21_apply, val_main_v20_apply,
    val_main_v17_apply, val_main_v19_apply, val_main_v18_apply, val_main_cst_2_apply, val_main_v26_apply,
    val_main_cst_3_apply, ref_sqmu_bcast x0 x1 n p k, ref_hot x1 hL n p k, ref_inner x0 x1 n p k, e, ref_sqnorm x0 n p]
  rfl

/-- The reference's distance at (n, p, k): the root of the clamped square where it is positive, else zero. -/
theorem ref_dist (hL : S4x256x512.ShapeCasts Cert.Spec.SL) (n : Fin 4) (p : Fin 131072) (k : Fin 16) :
    val_main_v32 (F := Ideal) x0 x1 (ix3 n p k)
      = dist (hot (shapeCast Cert.Spec.SL x1 hL (ix3 n (0 : Fin 1) p)) k)
          (∑ c : Fin 32, val_main_v0 (F := Ideal) x0 (ix3 n c p) * val_main_v0 (F := Ideal) x0 (ix3 n c p))
          (∑ c : Fin 32, val_main_v11 (F := Ideal) x0 x1 (ix3 n c k) * val_main_v0 (F := Ideal) x0 (ix3 n c p))
          (val_main_v16 (F := Ideal) x0 x1 (ix2 n k)) := by
  rw [val_main_v32_apply, val_main_v31_apply, val_main_v30_apply, val_main_v29_apply, ref_clampSq x0 x1 hL n p k,
    val_main_v28_apply, val_main_cst_4_apply, val_main_call1_v1_apply, val_main_call1_v0_apply, val_main_cst_6_apply,
    val_main_call0_v1_apply, val_main_call0_v0_apply, val_main_cst_5_apply]
  rfl

/-- The reference's sum over the pixels of the distances is the specification's per-cluster sum, read through the
    view of [4, 1, 16] as [4, 16]; the reference's initial value is zero. -/
theorem ref_vsum (hL : S4x256x512.ShapeCasts Cert.Spec.SL) (hQ : S4x16.ShapeCasts Cert.Spec.SQ)
    (hV : Cert.Spec.SQ.ShapeCasts S4x16) :
    val_main_v33 (F := Ideal) x0 x1
      = shapeCast S4x16 (vSum (val_main_v0 (F := Ideal) x0) (shapeCast Cert.Spec.SL x1 hL) (val_main_v11 (F := Ideal) x0 x1)
          (shapeCast Cert.Spec.SQ (val_main_v16 (F := Ideal) x0 x1) hQ)) hV := by
  funext i
  obtain ⟨n, k, rfl⟩ : ∃ n k, i = ix2 n k := ⟨i 0, i 1, eq_ix2 i⟩
  rw [val_main_v33_apply, val_main_cst_7_apply, Ideal.ofBits_def, Ideal.ofBits_zero_f32, zero_add]
  rw [shapeCast_apply _ hV (ix2 n k) (ix3 n (0 : Fin 1) k) (by
    rewrite [Shape.rowMajor_val_three, Shape.rowMajor_val_two]
    show (n.val * 1 + 0) * 16 + k.val = n.val * 16 + k.val
    omega)]
  show _ = ∑ p : Fin 131072, dist (hot (shapeCast Cert.Spec.SL x1 hL (ix3 n (0 : Fin 1) p)) k)
      (∑ c : Fin 32, val_main_v0 (F := Ideal) x0 (ix3 n c p) * val_main_v0 (F := Ideal) x0 (ix3 n c p))
      (∑ c : Fin 32, val_main_v11 (F := Ideal) x0 x1 (ix3 n c k) * val_main_v0 (F := Ideal) x0 (ix3 n c p))
      (shapeCast Cert.Spec.SQ (val_main_v16 (F := Ideal) x0 x1) hQ (ix3 n (0 : Fin 1) k))
  rw [shapeCast_apply (val_main_v16 (F := Ideal) x0 x1) hQ (ix3 n (0 : Fin 1) k) (ix2 n k) (by
    rewrite [Shape.rowMajor_val_three, Shape.rowMajor_val_two]
    show n.val * 16 + k.val = (n.val * 1 + 0) * 16 + k.val
    omega)]
  refine Finset.sum_congr rfl fun p _ => ?_
  have e : idx_main_v33 (ix2 n k) p = ix3 n p k :=
    funext fun a => Fin.ext (by match a with | ⟨0, _⟩ => rfl | ⟨1, _⟩ => rfl | ⟨2, _⟩ => rfl)
  rw [e, ref_dist x0 x1 hL n p k]

end Cert.RefValue

end
-- ==== Proof.RefTail.lean ====
/-
  The reference's host tail is the shared one: each of its values from the cluster means on is the corresponding
  function of Tail applied to the reference's earlier values. Both sides unfold to the same term.
-/
import proofs.«156110_j67276367725273_1_alg».proof.Proof.Tail

noncomputable section

namespace Cert.RefTail

open Cert.ReferenceIdeal Cert.ReferenceIdeal.Gen Cert.ReferenceIdeal.Read Cert.Tail Idealize.ShloMosaic

variable (x0 : (⟨S4x32x256x512, .f32⟩ : BufTy).Contents (Elt Ideal)) (x1 : (⟨S4x256x512, .i32⟩ : BufTy).Contents (Elt Ideal))

/-- The means are the per-cluster sums divided by the pixel count. -/
theorem v11_eq : val_main_v11 (F := Ideal) x0 x1 = muOf (val_main_v9 (F := Ideal) x0 x1) := rfl

/-- The squared norms of the means. -/
theorem v16_eq : val_main_v16 (F := Ideal) x0 x1 = sqmuOf (val_main_v11 (F := Ideal) x0 x1) := rfl

/-- The mean distances are the per-cluster distance sums divided by the pixel count. -/
theorem v35_eq : val_main_v35 (F := Ideal) x0 x1 = vOf (val_main_v33 (F := Ideal) x0 x1) := rfl

/-- The variance term. -/
theorem v44_eq : val_main_v44 (F := Ideal) x0 x1 = lossVar (val_main_v35 (F := Ideal) x0 x1) := rfl

/-- The separation term. -/
theorem v76_eq : val_main_v76 (F := Ideal) x0 x1 =
    lossDist (val_main_v11 (F := Ideal) x0 x1) (val_main_v16 (F := Ideal) x0 x1) := rfl

/-- The regulariser. -/
theorem v86_eq : val_main_v86 (F := Ideal) x0 x1 = lossNorm (val_main_v16 (F := Ideal) x0 x1) := rfl

/-- The weighted total. -/
theorem v91_eq : val_main_v91 (F := Ideal) x0 x1 =
    lossTotal (val_main_v44 (F := Ideal) x0 x1) (val_main_v76 (F := Ideal) x0 x1) (val_main_v86 (F := Ideal) x0 x1) := rfl

end Cert.RefTail

end
-- ==== Proof.RefResults.lean ====
/-
  What the idealized reference returns, as the same functions of its two argument arrays.

  The reference's contraction of the features with the one-hot labels is the per-cluster pixel sum, and its sum over the
  pixels of the distances is the per-cluster pixel sum of distances; every operation between and after them is the same
  host operation in both programs. So its five results are the kernel's functions of the arguments: the weighted total,
  the three losses, and the cluster means.
-/
import proofs.«156110_j67276367725273_1_alg».proof.Proof.KernelValue
import proofs.«156110_j67276367725273_1_alg».proof.Proof.RefValue
import proofs.«156110_j67276367725273_1_alg».proof.Proof.RefTail

noncomputable section

namespace Cert.RefResults

open Cert.ReferenceIdeal Cert.ReferenceIdeal.Read Cert.Tail Cert.KernelValue
open Idealize.ShloMosaic

variable (x0 : (⟨S4x32x256x512, .f32⟩ : BufTy).Contents (Elt Ideal)) (x1 : (⟨S4x256x512, .i32⟩ : BufTy).Contents (Elt Ideal))

/-- The reference's contraction is the per-cluster pixel sums. -/
theorem v9_eq : val_main_v9 (F := Ideal) x0 x1 = sums x0 x1 :=
  Cert.RefValue.ref_musum x0 x1 Cert.KernelIdeal.Facts₀.shapeCasts_S4x256x512_S4x1x131072

/-- Its quotient by the pixel count is the cluster means. -/
theorem v11_eq : val_main_v11 (F := Ideal) x0 x1 = means x0 x1 :=
  (Cert.RefTail.v11_eq x0 x1).trans (congrArg muOf (v9_eq x0 x1))

/-- The squared norms of the means. -/
theorem v16_eq : val_main_v16 (F := Ideal) x0 x1 = meanSq x0 x1 :=
  (Cert.RefTail.v16_eq x0 x1).trans (congrArg sqmuOf (v11_eq x0 x1))

/-- Its sum over the pixels of the distances, as a [4, 16] array, is the reshaped per-cluster pixel sums of distances. -/
theorem v33_eq : val_main_v33 (F := Ideal) x0 x1
    = shapeCast Cert.KernelIdeal.S4x16 (distSums x0 x1) Cert.KernelIdeal.Facts₀.shapeCasts_S4x1x16_S4x16 := by
  refine (Cert.RefValue.ref_vsum x0 x1 Cert.KernelIdeal.Facts₀.shapeCasts_S4x256x512_S4x1x131072
    Cert.KernelIdeal.Facts₀.shapeCasts_S4x16_S4x1x16 Cert.KernelIdeal.Facts₀.shapeCasts_S4x1x16_S4x16).trans ?_
  rw [v11_eq, v16_eq]
  rfl

/-- The mean distances. -/
theorem v35_eq : val_main_v35 (F := Ideal) x0 x1 = meanDist x0 x1 :=
  (Cert.RefTail.v35_eq x0 x1).trans (congrArg vOf (v33_eq x0 x1))

/-- The three losses and their weighted total. -/
theorem v44_eq : val_main_v44 (F := Ideal) x0 x1 = lVar x0 x1 :=
  (Cert.RefTail.v44_eq x0 x1).trans (congrArg lossVar (v35_eq x0 x1))
theorem v76_eq : val_main_v76 (F := Ideal) x0 x1 = lDist x0 x1 :=
  (Cert.RefTail.v76_eq x0 x1).trans (congrArg₂ lossDist (v11_eq x0 x1) (v16_eq x0 x1))
theorem v86_eq : val_main_v86 (F := Ideal) x0 x1 = lNorm x0 x1 :=
  (Cert.RefTail.v86_eq x0 x1).trans (congrArg lossNorm (v16_eq x0 x1))
theorem v91_eq : val_main_v91 (F := Ideal) x0 x1 = lTotal x0 x1 := by
  refine (Cert.RefTail.v91_eq x0 x1).trans ?_
  rw [v44_eq, v76_eq, v86_eq]
  rfl

end Cert.RefResults

end
-- ==== Proof.lean ====
/-
  The instance-clustering loss kernel against its reference, over the extended reals.

  Both programs reshape the features to X : [4, 32, 131072] and compare each pixel's label with the 16 class numbers. The
  kernel accumulates, over 4 tiles of 32768 pixels per batch, the per-cluster pixel sums of the features, and then, with
  the cluster means and their squared norms computed between its two regions, the per-cluster pixel sums of the distances
  to the means; the reference computes both sums whole. A sum over the pixels is the sum over the tiles of the sums over a
  tile (associativity and commutativity of addition of extended reals only: no finiteness is needed), a product of a
  matrix into a zero accumulator is the plain contraction sum, and a change of float format is the identity, so the two
  sums agree entry by entry; every other operation is the same host operation in both programs. The kernel's run is its
  two regions' frame runs read as values; the reference's run is its generated run.
-/
import proofs.«156110_j67276367725273_1_alg».proof.Defs
import proofs.«156110_j67276367725273_1_alg».proof.Proof.Gen.Kernel
import proofs.«156110_j67276367725273_1_alg».proof.Proof.Gen.Kernel.Skeleton
import proofs.«156110_j67276367725273_1_alg».proof.Proof.Gen.Kernel.Launch
import proofs.«156110_j67276367725273_1_alg».proof.Proof.Gen.Kernel.Points
import proofs.«156110_j67276367725273_1_alg».proof.Proof.Gen.Kernel.Frame
import proofs.«156110_j67276367725273_1_alg».proof.Proof.Gen.KernelIdeal
import proofs.«156110_j67276367725273_1_alg».proof.Proof.Gen.KernelIdeal.Skeleton
import proofs.«156110_j67276367725273_1_alg».proof.Proof.Gen.KernelIdeal.Launch
import proofs.«156110_j67276367725273_1_alg».proof.Proof.Gen.KernelIdeal.Points
import proofs.«156110_j67276367725273_1_alg».proof.Proof.Gen.KernelIdeal.Frame
import proofs.«156110_j67276367725273_1_alg».proof.Proof.Gen.ReferenceIdeal
import proofs.«156110_j67276367725273_1_alg».proof.Proof.Gen.ReferenceIdeal.Run
import proofs.«156110_j67276367725273_1_alg».proof.Proof.Gen.ReferenceIdeal.Read
import proofs.«156110_j67276367725273_1_alg».proof.Proof.Gen.Pre_finite_inputs
import proofs.«156110_j67276367725273_1_alg».proof.Proof.KernelValue
import proofs.«156110_j67276367725273_1_alg».proof.Proof.RefResults
import Idealize.ShloMosaic.Adequacy
import Idealize.ShloMosaic.Init

noncomputable section

namespace Cert.Proof

open Idealize.ShloMosaic Idealize.SL.Sem

/-- The word-level kernel and the idealized kernel run, and leave their arguments as launched. -/
theorem frame_k : Cert.frame_Kernel := fun m ρ _ => Cert.Kernel.Gen.frame m ρ
theorem frame_ki : Cert.frame_KernelIdeal := fun m ρ _ => Cert.KernelIdeal.Gen.frame m ρ

/-- The reference runs and leaves its arguments as launched: its run, the results dropped. -/
theorem frame_ri : Cert.frame_ReferenceIdeal := fun m ρ _ =>
  (θ_run Cert.ReferenceIdeal.defs _ _).mono (fun _ h c => (h c).2.2.2.2.2)
    (Cert.ReferenceIdeal.Value.run (F := Ideal) m ρ)

/-- The idealization rewrote no operation. -/
theorem preserves : Cert.preserves_Kernel_KernelIdeal := trivial

/-- From memories that agree on the arguments both idealized programs run and end with the same five results: the
    weighted total loss, the three losses, and the cluster means, each the same function of the arguments. -/
theorem algebraic : Cert.algebraic_KernelIdeal_ReferenceIdeal := by
  intro m ρ m' ρ' _ hagree
  refine ⟨fun c => Cert.KernelValue.lTotal (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.KernelValue.lVar (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.KernelValue.lDist (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.KernelValue.lNorm (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.KernelValue.means (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    Cert.KernelValue.run m ρ, ?_⟩
  refine (θ_run Cert.ReferenceIdeal.defs _ _).mono (fun r h c => ?_) (Cert.ReferenceIdeal.Value.run (F := Ideal) m' ρ')
  obtain ⟨h0, h1, h2, h3, h4, h5, h6⟩ := h c
  refine ⟨h0.trans ?_, h1.trans ?_, h2.trans ?_, h3.trans ?_, h4.trans ?_, h5, h6⟩
  · rw [Cert.ReferenceIdeal.Read.val_main_v91_eq, Cert.RefResults.v91_eq, (hagree c).1, (hagree c).2]
  · rw [Cert.ReferenceIdeal.Read.val_main_v44_eq, Cert.RefResults.v44_eq, (hagree c).1, (hagree c).2]
  · rw [Cert.ReferenceIdeal.Read.val_main_v76_eq, Cert.RefResults.v76_eq, (hagree c).1, (hagree c).2]
  · rw [Cert.ReferenceIdeal.Read.val_main_v86_eq, Cert.RefResults.v86_eq, (hagree c).1, (hagree c).2]
  · refine (Cert.ReferenceIdeal.Read.val_main_v11_eq _ _).trans ?_
    rw [Cert.RefResults.v11_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
